-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x400x100 : Shape := ⟨3, ![128, 400, 100]⟩
abbrev S128x2 : Shape := ⟨2, ![128, 2]⟩
abbrev S_ : Shape := ⟨0, ![]⟩

class Facts : Prop where
  bcast_S_S128x400x100 : S_.BroadcastsInDim S128x400x100 (![] : Fin 0 → Fin S128x400x100.rank)
  reducesTo_S128x400x100_S_d0_1_2 : S128x400x100.ReducesTo [0, 1, 2] S_
  h_S_ : 0 < S_.numel

variable [Facts]

def fn {F : FTy → Type} [FloatOps F] (main_arg0 : FVec F S128x400x100 .f32) (main_arg1 : IVec S128x2 32) : IVec S_ 1 :=
  let main_v0 : FVec F S128x400x100 .f32 := Host.absf main_arg0
  let main_cst : FVec F S_ .f32 := constant S_ .f32 0x7F800000#32
  let main_v1 : FVec F S128x400x100 .f32 := broadcastInDim S128x400x100 ![] bcast_S_S128x400x100 main_cst
  let main_v2 : IVec S128x400x100 1 := cmpf .olt main_v0 main_v1
  let main_c : IVec S_ 1 := constantI S_ 1 1#1
  let main_v3 : IVec S_ 1 := (fun x v => Host.reduce IntOp.andi x v reducesTo_S128x400x100_S_d0_1_2 h_S_) main_v2 main_c
  main_v3
-- ==== Kernel.lean ====
abbrev S128x400x100 : Shape := ⟨3, ![128, 400, 100]⟩
abbrev S128x2 : Shape := ⟨2, ![128, 2]⟩
abbrev S128x1 : Shape := ⟨2, ![128, 1]⟩
abbrev S128 : Shape := ⟨1, ![128]⟩
abbrev S16 : Shape := ⟨1, ![16]⟩
abbrev S100 : Shape := ⟨1, ![100]⟩
abbrev S_ : Shape := ⟨0, ![]⟩
abbrev S128x1x1 : Shape := ⟨3, ![128, 1, 1]⟩
abbrev S1x16x1 : Shape := ⟨3, ![1, 16, 1]⟩
abbrev S128x16x1 : Shape := ⟨3, ![128, 16, 1]⟩
abbrev S1x1x100 : Shape := ⟨3, ![1, 1, 100]⟩
abbrev S128x16x100 : Shape := ⟨3, ![128, 16, 100]⟩
abbrev S128x1x100 : Shape := ⟨3, ![128, 1, 100]⟩
abbrev S128x16x100x1 : Shape := ⟨4, ![128, 16, 100, 1]⟩
abbrev S128x16x100x3 : Shape := ⟨4, ![128, 16, 100, 3]⟩
abbrev S128x400x16 : Shape := ⟨3, ![128, 400, 16]⟩
abbrev S32x400x100 : Shape := ⟨3, ![32, 400, 100]⟩
abbrev S32x16x100 : Shape := ⟨3, ![32, 16, 100]⟩
abbrev S32x400x16 : Shape := ⟨3, ![32, 400, 16]⟩

abbrev nBuf : Space → Nat
  | .hbm => 139
  | .vmem => 6
  | .smem => 0
  | _ => 0

abbrev hbmTy0_0 (i : Nat) : BufTy := match i % 128 with
  | 0 => ⟨S128x400x100, .f32⟩
  | 1 => ⟨S128x2, .i32⟩
  | 2 => ⟨S128x1, .i32⟩
  | 3 => ⟨S128, .i32⟩
  | 4 => ⟨S128x1, .i32⟩
  | 5 => ⟨S128, .i32⟩
  | 6 => ⟨S128, .i32⟩
  | 7 => ⟨S16, .i32⟩
  | 8 => ⟨S100, .i32⟩
  | 9 => ⟨S_, .i32⟩
  | 10 => ⟨S128, .i32⟩
  | 11 => ⟨S128, .i32⟩
  | 12 => ⟨S_, .i32⟩
  | 13 => ⟨S128, .i32⟩
  | 14 => ⟨S128, .i32⟩
  | 15 => ⟨S128x1x1, .i32⟩
  | 16 => ⟨S128x1x1, .i32⟩
  | 17 => ⟨S1x16x1, .i32⟩
  | 18 => ⟨S128x16x1, .i32⟩
  | 19 => ⟨S128x16x1, .i32⟩
  | 20 => ⟨S128x16x1, .i32⟩
  | 21 => ⟨S128x16x1, .i32⟩
  | 22 => ⟨S128x16x1, .i32⟩
  | 23 => ⟨S1x1x100, .i32⟩
  | 24 => ⟨S128x16x100, .i32⟩
  | 25 => ⟨S128x16x100, .i32⟩
  | 26 => ⟨S128x16x100, .i32⟩
  | 27 => ⟨S128x16x100, .f32⟩
  | 28 => ⟨S_, .f32⟩
  | 29 => ⟨S_, .f32⟩
  | 30 => ⟨S_, .f32⟩
  | 31 => ⟨S128x16x100, .f32⟩
  | 32 => ⟨S128x16x100, .f32⟩
  | 33 => ⟨S_, .f32⟩
  | 34 => ⟨S128x16x100, .f32⟩
  | 35 => ⟨S128x16x100, .f32⟩
  | 36 => ⟨S_, .f32⟩
  | 37 => ⟨S128x16x100, .f32⟩
  | 38 => ⟨S128x16x100, .f32⟩
  | 39 => ⟨S_, .f32⟩
  | 40 => ⟨S128x16x100, .f32⟩
  | 41 => ⟨S128x16x100, .f32⟩
  | 42 => ⟨S128x16x100, .f32⟩
  | 43 => ⟨S128x16x100, .i32⟩
  | 44 => ⟨S_, .i32⟩
  | 45 => ⟨S_, .i32⟩
  | 46 => ⟨S_, .i32⟩
  | 47 => ⟨S128x16x100, .i32⟩
  | 48 => ⟨S128x16x100, .i32⟩
  | 49 => ⟨S_, .i32⟩
  | 50 => ⟨S128x16x100, .i32⟩
  | 51 => ⟨S128x16x100, .i32⟩
  | 52 => ⟨S128x16x100, .f32⟩
  | 53 => ⟨S128x16x100, .f32⟩
  | 54 => ⟨S1x1x100, .i32⟩
  | 55 => ⟨S128x1x1, .i32⟩
  | 56 => ⟨S128x1x100, .i32⟩
  | 57 => ⟨S128x1x100, .i32⟩
  | 58 => ⟨S128x1x100, .i1⟩
  | 59 => ⟨S128x1x100, .f32⟩
  | 60 => ⟨S_, .i32⟩
  | 61 => ⟨S128, .i32⟩
  | 62 => ⟨S128, .i32⟩
  | 63 => ⟨S128, .f32⟩
  | 64 => ⟨S128x1x1, .f32⟩
  | 65 => ⟨S_, .f32⟩
  | 66 => ⟨S128x16x100, .f32⟩
  | 67 => ⟨S128x16x100, .f32⟩
  | 68 => ⟨S128x16x100, .f32⟩
  | 69 => ⟨S128x16x100, .f32⟩
  | 70 => ⟨S128x16x100, .f32⟩
  | 71 => ⟨S128x16x100, .f32⟩
  | 72 => ⟨S128x16x100, .f32⟩
  | 73 => ⟨S128x16x100, .f32⟩
  | 74 => ⟨S128x16x100, .f32⟩
  | 75 => ⟨S128x16x100, .f32⟩
  | 76 => ⟨S128, .i32⟩
  | 77 => ⟨S128x1x1, .i32⟩
  | 78 => ⟨S128x16x100, .i32⟩
  | 79 => ⟨S1x16x1, .i32⟩
  | 80 => ⟨S128x16x100, .i32⟩
  | 81 => ⟨S_, .f32⟩
  | 82 => ⟨S128x16x100, .f32⟩
  | 83 => ⟨S_, .i32⟩
  | 84 => ⟨S128x16x100, .i32⟩
  | 85 => ⟨S128x16x100, .i1⟩
  | 86 => ⟨S_, .i32⟩
  | 87 => ⟨S128x16x100, .i32⟩
  | 88 => ⟨S128x16x100, .i32⟩
  | 89 => ⟨S128x16x100, .i32⟩
  | 90 => ⟨S_, .i32⟩
  | 91 => ⟨S128x16x100, .i32⟩
  | 92 => ⟨S128x16x100, .i1⟩
  | 93 => ⟨S_, .i32⟩
  | 94 => ⟨S128x16x100, .i32⟩
  | 95 => ⟨S128x16x100, .i32⟩
  | 96 => ⟨S128x16x100, .i32⟩
  | 97 => ⟨S_, .i32⟩
  | 98 => ⟨S128x16x100, .i32⟩
  | 99 => ⟨S128x16x100, .i1⟩
  | 100 => ⟨S_, .i32⟩
  | 101 => ⟨S128x16x100, .i32⟩
  | 102 => ⟨S128x16x100, .i32⟩
  | 103 => ⟨S128x16x100, .i32⟩
  | 104 => ⟨S128x16x100x1, .i32⟩
  | 105 => ⟨S128x16x100x1, .i32⟩
  | 106 => ⟨S128x16x100x1, .i32⟩
  | 107 => ⟨S128x16x100x3, .i32⟩
  | 108 => ⟨S128x16x100, .f32⟩
  | 109 => ⟨S_, .i32⟩
  | 110 => ⟨S128x16x100, .i32⟩
  | 111 => ⟨S128x16x100, .i32⟩
  | 112 => ⟨S_, .i32⟩
  | 113 => ⟨S128x16x100, .i32⟩
  | 114 => ⟨S128x16x100, .i1⟩
  | 115 => ⟨S_, .i32⟩
  | 116 => ⟨S128x16x100, .i32⟩
  | 117 => ⟨S128x16x100, .i32⟩
  | 118 => ⟨S128x16x100, .i32⟩
  | 119 => ⟨S_, .i32⟩
  | 120 => ⟨S128x16x100, .i32⟩
  | 121 => ⟨S128x16x100, .i1⟩
  | 122 => ⟨S_, .i32⟩
  | 123 => ⟨S128x16x100, .i32⟩
  | 124 => ⟨S128x16x100, .i32⟩
  | 125 => ⟨S128x16x100, .i32⟩
  | 126 => ⟨S_, .i32⟩
  | 127 => ⟨S128x16x100, .i32⟩
  | _ => ⟨S128x400x100, .f32⟩

abbrev hbmTy0_1 (i : Nat) : BufTy := match i % 128 with
  | 0 => ⟨S128x16x100, .i1⟩
  | 1 => ⟨S_, .i32⟩
  | 2 => ⟨S128x16x100, .i32⟩
  | 3 => ⟨S128x16x100, .i32⟩
  | 4 => ⟨S128x16x100, .i32⟩
  | 5 => ⟨S128x16x100x1, .i32⟩
  | 6 => ⟨S128x16x100x1, .i32⟩
  | 7 => ⟨S128x16x100x1, .i32⟩
  | 8 => ⟨S128x16x100x3, .i32⟩
  | 9 => ⟨S128x16x100, .f32⟩
  | 10 => ⟨S128x400x16, .f32⟩
  | _ => ⟨S128x400x100, .f32⟩

abbrev hbmTy (i : Nat) : BufTy := match i / 128 with
  | 0 => hbmTy0_0 i
  | 1 => hbmTy0_1 i
  | _ => ⟨S128x400x100, .f32⟩

abbrev bufTy : (tb : Table) → Fin (tcTables nBuf tb) → BufTy
  | .hbm, ⟨i, _⟩ => hbmTy i
  | .local _ .vmem, ⟨0, _⟩ => ⟨S32x400x100, .f32⟩
  | .local _ .vmem, ⟨1, _⟩ => ⟨S32x400x100, .f32⟩
  | .local _ .vmem, ⟨2, _⟩ => ⟨S32x16x100, .f32⟩
  | .local _ .vmem, ⟨3, _⟩ => ⟨S32x16x100, .f32⟩
  | .local _ .vmem, ⟨4, _⟩ => ⟨S32x400x16, .f32⟩
  | .local _ .vmem, ⟨5, _⟩ => ⟨S32x400x16, .f32⟩
  | _, _ => ⟨S128x400x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_c_5 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_8 : Ref sig .tc := ⟨.hbm, 81, rfl⟩
abbrev main_v59 : Ref sig .tc := ⟨.hbm, 82, rfl⟩
abbrev main_c_9 : Ref sig .tc := ⟨.hbm, 83, rfl⟩
abbrev main_v60 : Ref sig .tc := ⟨.hbm, 84, rfl⟩
abbrev main_v61 : Ref sig .tc := ⟨.hbm, 85, rfl⟩
abbrev main_c_10 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_11 : Ref sig .tc := ⟨.hbm, 90, rfl⟩
abbrev main_v65 : Ref sig .tc := ⟨.hbm, 91, rfl⟩
abbrev main_v66 : Ref sig .tc := ⟨.hbm, 92, rfl⟩
abbrev main_c_12 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_13 : Ref sig .tc := ⟨.hbm, 97, rfl⟩
abbrev main_v70 : Ref sig .tc := ⟨.hbm, 98, rfl⟩
abbrev main_v71 : Ref sig .tc := ⟨.hbm, 99, rfl⟩
abbrev main_c_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_15 : Ref sig .tc := ⟨.hbm, 109, rfl⟩
abbrev main_v80 : Ref sig .tc := ⟨.hbm, 110, rfl⟩
abbrev main_v81 : Ref sig .tc := ⟨.hbm, 111, rfl⟩
abbrev main_c_16 : Ref sig .tc := ⟨.hbm, 112, rfl⟩
abbrev main_v82 : Ref sig .tc := ⟨.hbm, 113, rfl⟩
abbrev main_v83 : Ref sig .tc := ⟨.hbm, 114, rfl⟩
abbrev main_c_17 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_c_18 : Ref sig .tc := ⟨.hbm, 119, rfl⟩
abbrev main_v87 : Ref sig .tc := ⟨.hbm, 120, rfl⟩
abbrev main_v88 : Ref sig .tc := ⟨.hbm, 121, rfl⟩
abbrev main_c_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_20 : Ref sig .tc := ⟨.hbm, 126, rfl⟩
abbrev main_v92 : Ref sig .tc := ⟨.hbm, 127, rfl⟩
abbrev main_v93 : Ref sig .tc := ⟨.hbm, 128, rfl⟩
abbrev main_c_21 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x400x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x16x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x400x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S128x2_S128x1_0_0 : S128x2.Slices ![0, 0] S128x1
  shapeCasts_S128x1_S128 : S128x1.ShapeCasts S128
  slices_S128x2_S128x1_0_1 : S128x2.Slices ![0, 1] S128x1
  bcast_S_S128 : S_.BroadcastsInDim S128 (![] : Fin 0 → Fin S128.rank)
  bcast_S128_S128x1x1_0 : S128.BroadcastsInDim S128x1x1 (![0] : Fin 1 → Fin S128x1x1.rank)
  bcast_S16_S1x16x1_1 : S16.BroadcastsInDim S1x16x1 (![1] : Fin 1 → Fin S1x16x1.rank)
  bcast_S128x1x1_S128x16x1_0_1_2 : S128x1x1.BroadcastsInDim S128x16x1 (![0, 1, 2] : Fin 3 → Fin S128x16x1.rank)
  bcast_S1x16x1_S128x16x1_0_1_2 : S1x16x1.BroadcastsInDim S128x16x1 (![0, 1, 2] : Fin 3 → Fin S128x16x1.rank)
  bcast_S100_S1x1x100_2 : S100.BroadcastsInDim S1x1x100 (![2] : Fin 1 → Fin S1x1x100.rank)
  bcast_S128x16x1_S128x16x100_0_1_2 : S128x16x1.BroadcastsInDim S128x16x100 (![0, 1, 2] : Fin 3 → Fin S128x16x100.rank)
  bcast_S1x1x100_S128x16x100_0_1_2 : S1x1x100.BroadcastsInDim S128x16x100 (![0, 1, 2] : Fin 3 → Fin S128x16x100.rank)
  bcast_S_S128x16x100 : S_.BroadcastsInDim S128x16x100 (![] : Fin 0 → Fin S128x16x100.rank)
  bcast_S1x1x100_S128x1x100_0_1_2 : S1x1x100.BroadcastsInDim S128x1x100 (![0, 1, 2] : Fin 3 → Fin S128x1x100.rank)
  bcast_S128x1x1_S128x1x100_0_1_2 : S128x1x1.BroadcastsInDim S128x1x100 (![0, 1, 2] : Fin 3 → Fin S128x1x100.rank)
  bcast_S128x1x100_S128x16x100_0_1_2 : S128x1x100.BroadcastsInDim S128x16x100 (![0, 1, 2] : Fin 3 → Fin S128x16x100.rank)
  bcast_S128x1x1_S128x16x100_0_1_2 : S128x1x1.BroadcastsInDim S128x16x100 (![0, 1, 2] : Fin 3 → Fin S128x16x100.rank)
  bcast_S1x16x1_S128x16x100_0_1_2 : S1x16x1.BroadcastsInDim S128x16x100 (![0, 1, 2] : Fin 3 → Fin S128x16x100.rank)
  bcast_S128x16x100_S128x16x100x1_0_1_2 : S128x16x100.BroadcastsInDim S128x16x100x1 (![0, 1, 2] : Fin 3 → Fin S128x16x100x1.rank)
  concatenates_S128x16x100x1_S128x16x100x1_S128x16x100x1_S128x16x100x3_d3 : Shape.Concatenates [S128x16x100x1, S128x16x100x1, S128x16x100x1] S128x16x100x3 3
  inb_S32x400x100_S32x400x100_0_0_0 : ∀ a, (![0, 0, 0] : Fin 3 → Nat) a + S32x400x100.size a ≤ S32x400x100.size a
  h_S32x400x100 : 0 < S32x400x100.numel
  bitsLt_bf16_f32 : FTy.bits .bf16 < FTy.bits .f32
  inb_S32x16x100_S32x16x100_0_0_0 : ∀ a, (![0, 0, 0] : Fin 3 → Nat) a + S32x16x100.size a ≤ S32x16x100.size a
  h_S32x16x100 : 0 < S32x16x100.numel
  shapeCasts_S32x16x100_S32x16x100 : S32x16x100.ShapeCasts S32x16x100
  inb_S32x400x16_S32x400x16_0_0_0 : ∀ a, (![0, 0, 0] : Fin 3 → Nat) a + S32x400x16.size a ≤ S32x400x16.size a
  h_S32x400x16 : 0 < S32x400x16.numel
  scatter_S128x16x100_S128x16x100x3_S128x16x100_n_012_012_3_wf : ScatterDims.WF S128x16x100 S128x16x100x3 S128x16x100 [] [0, 1, 2] [0, 1, 2] 3
  dot_S32x400x100_S32x16x100_S32x400x16_2_2_1_1_0_0_wf : DotDims.WF S32x400x100 S32x16x100 S32x400x16 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x400x100.size a ≤ S128x400x100.size a
  hwx0_0 : ∀ i : grid0.Coords, EltTy.bits .f32 = 32 ∨ (Rect.block (s := S128x400x100) S32x400x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x16x100.size a ≤ S128x16x100.size a
  hwx0_1 : ∀ i : grid0.Coords, EltTy.bits .f32 = 32 ∨ (Rect.block (s := S128x16x100) S32x16x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x400x16.size a ≤ S128x400x16.size a
  hwx0_2 : ∀ i : grid0.Coords, EltTy.bits .f32 = 32 ∨ (Rect.block (s := S128x400x16) S32x400x16.size (cc0_transform_2 i) (hinb0_2 i)).WholeWords (EltTy.packing .f32)

variable [Facts₀]

def scatter_S128x16x100_S128x16x100x3_S128x16x100_n_012_012_3 : ScatterDims S128x16x100 S128x16x100x3 S128x16x100 where
  updateWindowDims := []
  insertedWindowDims := [0, 1, 2]
  scatterDimsToOperandDims := [0, 1, 2]
  indexVectorDim := 3
  wf := scatter_S128x16x100_S128x16x100x3_S128x16x100_n_012_012_3_wf
def dot_S32x400x100_S32x16x100_S32x400x16_2_2_1_1_0_0 : DotDims S32x400x100 S32x16x100 S32x400x16 where
  lhsContracting := [2]
  rhsContracting := [2]
  lhsNonContracting := [1]
  rhsNonContracting := [1]
  lhsBatch := [0]
  rhsBatch := [0]
  wf := dot_S32x400x100_S32x16x100_S32x400x16_2_2_1_1_0_0_wf

abbrev win0_0 : Pipeline.Window sig grid0 :=
  Pipeline.Window.ofSpec (Memref.whole main_arg0) S32x400x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v101) S32x16x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v102) S32x400x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x400x100 : Shape := ⟨3, ![128, 400, 100]⟩
abbrev S128x2 : Shape := ⟨2, ![128, 2]⟩
abbrev S128x1 : Shape := ⟨2, ![128, 1]⟩
abbrev S128 : Shape := ⟨1, ![128]⟩
abbrev S16 : Shape := ⟨1, ![16]⟩
abbrev S100 : Shape := ⟨1, ![100]⟩
abbrev S_ : Shape := ⟨0, ![]⟩
abbrev S128x1x1 : Shape := ⟨3, ![128, 1, 1]⟩
abbrev S1x16x1 : Shape := ⟨3, ![1, 16, 1]⟩
abbrev S128x16x1 : Shape := ⟨3, ![128, 16, 1]⟩
abbrev S1x1x100 : Shape := ⟨3, ![1, 1, 100]⟩
abbrev S128x16x100 : Shape := ⟨3, ![128, 16, 100]⟩
abbrev S128x1x1600 : Shape := ⟨3, ![128, 1, 1600]⟩
abbrev S128x1600x1 : Shape := ⟨3, ![128, 1600, 1]⟩
abbrev S1 : Shape := ⟨1, ![1]⟩
abbrev S1x1x1 : Shape := ⟨3, ![1, 1, 1]⟩
abbrev S128x1600 : Shape := ⟨2, ![128, 1600]⟩
abbrev S128x400x1600 : Shape := ⟨3, ![128, 400, 1600]⟩
abbrev S128x400x16x100 : Shape := ⟨4, ![128, 400, 16, 100]⟩
abbrev S128x1x16x100 : Shape := ⟨4, ![128, 1, 16, 100]⟩
abbrev S128x1x100 : Shape := ⟨3, ![128, 1, 100]⟩
abbrev S128x1x1x100 : Shape := ⟨4, ![128, 1, 1, 100]⟩
abbrev S128x400x16 : Shape := ⟨3, ![128, 400, 16]⟩

abbrev nBuf : Space → Nat
  | .hbm => 133
  | .vmem => 0
  | .smem => 0
  | _ => 0

abbrev hbmTy0_0 (i : Nat) : BufTy := match i % 128 with
  | 0 => ⟨S128x400x100, .f32⟩
  | 1 => ⟨S128x2, .i32⟩
  | 2 => ⟨S128x1, .i32⟩
  | 3 => ⟨S128, .i32⟩
  | 4 => ⟨S128x1, .i32⟩
  | 5 => ⟨S128, .i32⟩
  | 6 => ⟨S128, .i32⟩
  | 7 => ⟨S16, .i32⟩
  | 8 => ⟨S100, .i32⟩
  | 9 => ⟨S_, .i32⟩
  | 10 => ⟨S128, .i32⟩
  | 11 => ⟨S128, .i32⟩
  | 12 => ⟨S_, .i32⟩
  | 13 => ⟨S128, .i32⟩
  | 14 => ⟨S128, .i32⟩
  | 15 => ⟨S128x1x1, .i32⟩
  | 16 => ⟨S128x1x1, .i32⟩
  | 17 => ⟨S1x16x1, .i32⟩
  | 18 => ⟨S128x16x1, .i32⟩
  | 19 => ⟨S128x16x1, .i32⟩
  | 20 => ⟨S128x16x1, .i32⟩
  | 21 => ⟨S128x16x1, .i32⟩
  | 22 => ⟨S128x16x1, .i32⟩
  | 23 => ⟨S1x1x100, .i32⟩
  | 24 => ⟨S128x16x100, .i32⟩
  | 25 => ⟨S128x16x100, .i32⟩
  | 26 => ⟨S128x16x100, .i32⟩
  | 27 => ⟨S128x16x100, .f32⟩
  | 28 => ⟨S_, .f32⟩
  | 29 => ⟨S_, .f32⟩
  | 30 => ⟨S_, .f32⟩
  | 31 => ⟨S128x16x100, .f32⟩
  | 32 => ⟨S128x16x100, .f32⟩
  | 33 => ⟨S_, .f32⟩
  | 34 => ⟨S128x16x100, .f32⟩
  | 35 => ⟨S128x16x100, .f32⟩
  | 36 => ⟨S_, .f32⟩
  | 37 => ⟨S128x16x100, .f32⟩
  | 38 => ⟨S128x16x100, .f32⟩
  | 39 => ⟨S_, .f32⟩
  | 40 => ⟨S128x16x100, .f32⟩
  | 41 => ⟨S128x16x100, .f32⟩
  | 42 => ⟨S128x16x100, .f32⟩
  | 43 => ⟨S128x16x100, .i32⟩
  | 44 => ⟨S_, .i32⟩
  | 45 => ⟨S_, .i32⟩
  | 46 => ⟨S_, .i32⟩
  | 47 => ⟨S128x16x100, .i32⟩
  | 48 => ⟨S128x16x100, .i32⟩
  | 49 => ⟨S_, .i32⟩
  | 50 => ⟨S128x16x100, .i32⟩
  | 51 => ⟨S128x16x100, .i32⟩
  | 52 => ⟨S128x16x100, .f32⟩
  | 53 => ⟨S128x16x100, .f32⟩
  | 54 => ⟨S128x1x1600, .i32⟩
  | 55 => ⟨S_, .i32⟩
  | 56 => ⟨S128x1x1600, .i32⟩
  | 57 => ⟨S128x1x1600, .i1⟩
  | 58 => ⟨S_, .i32⟩
  | 59 => ⟨S128x1x1600, .i32⟩
  | 60 => ⟨S128x1x1600, .i32⟩
  | 61 => ⟨S128x1x1600, .i32⟩
  | 62 => ⟨S128x1600x1, .i32⟩
  | 63 => ⟨S1, .i32⟩
  | 64 => ⟨S_, .i32⟩
  | 65 => ⟨S128x1600x1, .i32⟩
  | 66 => ⟨S128x1600x1, .i1⟩
  | 67 => ⟨S1x1x1, .i32⟩
  | 68 => ⟨S128x1600x1, .i32⟩
  | 69 => ⟨S128x1600x1, .i1⟩
  | 70 => ⟨S128x1600x1, .i1⟩
  | 71 => ⟨S_, .i1⟩
  | 72 => ⟨S128x1600, .i1⟩
  | 73 => ⟨S128x400x1600, .f32⟩
  | 74 => ⟨S128x400x1600, .i1⟩
  | 75 => ⟨S_, .f32⟩
  | 76 => ⟨S128x400x1600, .f32⟩
  | 77 => ⟨S128x400x1600, .f32⟩
  | 78 => ⟨S128x400x16x100, .f32⟩
  | 79 => ⟨S_, .i32⟩
  | 80 => ⟨S128x1x1600, .i32⟩
  | 81 => ⟨S128x1x1600, .i32⟩
  | 82 => ⟨S_, .i32⟩
  | 83 => ⟨S128x1x1600, .i32⟩
  | 84 => ⟨S128x1x1600, .i1⟩
  | 85 => ⟨S_, .i32⟩
  | 86 => ⟨S128x1x1600, .i32⟩
  | 87 => ⟨S128x1x1600, .i32⟩
  | 88 => ⟨S128x1x1600, .i32⟩
  | 89 => ⟨S128x1600x1, .i32⟩
  | 90 => ⟨S1, .i32⟩
  | 91 => ⟨S_, .i32⟩
  | 92 => ⟨S128x1600x1, .i32⟩
  | 93 => ⟨S128x1600x1, .i1⟩
  | 94 => ⟨S1x1x1, .i32⟩
  | 95 => ⟨S128x1600x1, .i32⟩
  | 96 => ⟨S128x1600x1, .i1⟩
  | 97 => ⟨S128x1600x1, .i1⟩
  | 98 => ⟨S_, .i1⟩
  | 99 => ⟨S128x1600, .i1⟩
  | 100 => ⟨S128x400x1600, .f32⟩
  | 101 => ⟨S128x400x1600, .i1⟩
  | 102 => ⟨S_, .f32⟩
  | 103 => ⟨S128x400x1600, .f32⟩
  | 104 => ⟨S128x400x1600, .f32⟩
  | 105 => ⟨S128x400x16x100, .f32⟩
  | 106 => ⟨S128x1x16x100, .f32⟩
  | 107 => ⟨S_, .f32⟩
  | 108 => ⟨S128x1x16x100, .f32⟩
  | 109 => ⟨S128x1x16x100, .f32⟩
  | 110 => ⟨S128x400x16x100, .f32⟩
  | 111 => ⟨S128x400x16x100, .f32⟩
  | 112 => ⟨S128x400x16x100, .f32⟩
  | 113 => ⟨S128x400x16x100, .f32⟩
  | 114 => ⟨S128x400x16x100, .f32⟩
  | 115 => ⟨S1x1x100, .i32⟩
  | 116 => ⟨S128x1x1, .i32⟩
  | 117 => ⟨S128x1x100, .i32⟩
  | 118 => ⟨S128x1x100, .i32⟩
  | 119 => ⟨S128x1x100, .i1⟩
  | 120 => ⟨S128x1x100, .f32⟩
  | 121 => ⟨S128x1x1x100, .f32⟩
  | 122 => ⟨S_, .i32⟩
  | 123 => ⟨S128, .i32⟩
  | 124 => ⟨S128, .i32⟩
  | 125 => ⟨S128, .f32⟩
  | 126 => ⟨S128x1x1, .f32⟩
  | 127 => ⟨S128x400x16x100, .f32⟩
  | _ => ⟨S128x400x100, .f32⟩

abbrev hbmTy0_1 (i : Nat) : BufTy := match i % 128 with
  | 0 => ⟨S128x400x16x100, .f32⟩
  | 1 => ⟨S_, .f32⟩
  | 2 => ⟨S128x400x16, .f32⟩
  | 3 => ⟨S128x400x16, .f32⟩
  | 4 => ⟨S128x400x16, .f32⟩
  | _ => ⟨S128x400x100, .f32⟩

abbrev hbmTy (i : Nat) : BufTy := match i / 128 with
  | 0 => hbmTy0_0 i
  | 1 => hbmTy0_1 i
  | _ => ⟨S128x400x100, .f32⟩

abbrev bufTy : (tb : Table) → Fin (tcTables nBuf tb) → BufTy
  | .hbm, ⟨i, _⟩ => hbmTy i
  | _, _ => ⟨S128x400x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_c_5 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v35 : Ref sig .tc := ⟨.hbm, 77, rfl⟩
abbrev main_v36 : Ref sig .tc := ⟨.hbm, 78, rfl⟩
abbrev main_c_6 : Ref sig .tc := ⟨.hbm, 79, rfl⟩
abbrev main_v37 : Ref sig .tc := ⟨.hbm, 80, rfl⟩
abbrev main_v38 : Ref sig .tc := ⟨.hbm, 81, rfl⟩
abbrev main_call3_c : Ref sig .tc := ⟨.hbm, 82, rfl⟩
abbrev main_call3_v0 : Ref sig .tc := ⟨.hbm, 83, rfl⟩
abbrev main_call3_v1 : Ref sig .tc := ⟨.hbm, 84, rfl⟩
abbrev main_call3_c_0 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_c_1 : Ref sig .tc := ⟨.hbm, 90, rfl⟩
abbrev main_call3_c_2 : Ref sig .tc := ⟨.hbm, 91, rfl⟩
abbrev main_call3_v6 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_c_3 : Ref sig .tc := ⟨.hbm, 98, rfl⟩
abbrev main_call3_v12 : Ref sig .tc := ⟨.hbm, 99, rfl⟩
abbrev main_call3_v13 : Ref sig .tc := ⟨.hbm, 100, rfl⟩
abbrev main_call3_v14 : Ref sig .tc := ⟨.hbm, 101, rfl⟩
abbrev main_call3_cst : Ref sig .tc := ⟨.hbm, 102, rfl⟩
abbrev main_call3_v15 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_cst_7 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_c_8 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_cst_9 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩

abbrev nD : Nat := 1
abbrev τ : Topo := Topo.v7x

variable {F : FTy → Type} [FloatOps F]

class Facts₀ : Prop where
  slices_S128x2_S128x1_0_0 : S128x2.Slices ![0, 0] S128x1
  shapeCasts_S128x1_S128 : S128x1.ShapeCasts S128
  slices_S128x2_S128x1_0_1 : S128x2.Slices ![0, 1] S128x1
  bcast_S_S128 : S_.BroadcastsInDim S128 (![] : Fin 0 → Fin S128.rank)
  bcast_S128_S128x1x1_0 : S128.BroadcastsInDim S128x1x1 (![0] : Fin 1 → Fin S128x1x1.rank)
  bcast_S16_S1x16x1_1 : S16.BroadcastsInDim S1x16x1 (![1] : Fin 1 → Fin S1x16x1.rank)
  bcast_S128x1x1_S128x16x1_0_1_2 : S128x1x1.BroadcastsInDim S128x16x1 (![0, 1, 2] : Fin 3 → Fin S128x16x1.rank)
  bcast_S1x16x1_S128x16x1_0_1_2 : S1x16x1.BroadcastsInDim S128x16x1 (![0, 1, 2] : Fin 3 → Fin S128x16x1.rank)
  bcast_S100_S1x1x100_2 : S100.BroadcastsInDim S1x1x100 (![2] : Fin 1 → Fin S1x1x100.rank)
  bcast_S128x16x1_S128x16x100_0_1_2 : S128x16x1.BroadcastsInDim S128x16x100 (![0, 1, 2] : Fin 3 → Fin S128x16x100.rank)
  bcast_S1x1x100_S128x16x100_0_1_2 : S1x1x100.BroadcastsInDim S128x16x100 (![0, 1, 2] : Fin 3 → Fin S128x16x100.rank)
  bcast_S_S128x16x100 : S_.BroadcastsInDim S128x16x100 (![] : Fin 0 → Fin S128x16x100.rank)
  shapeCasts_S128x16x100_S128x1x1600 : S128x16x100.ShapeCasts S128x1x1600
  bcast_S_S128x1x1600 : S_.BroadcastsInDim S128x1x1600 (![] : Fin 0 → Fin S128x1x1600.rank)
  shapeCasts_S128x1x1600_S128x1600x1 : S128x1x1600.ShapeCasts S128x1600x1
  bcast_S_S128x1600x1 : S_.BroadcastsInDim S128x1600x1 (![] : Fin 0 → Fin S128x1600x1.rank)
  bcast_S1_S1x1x1_2 : S1.BroadcastsInDim S1x1x1 (![2] : Fin 1 → Fin S1x1x1.rank)
  bcast_S1x1x1_S128x1600x1_0_1_2 : S1x1x1.BroadcastsInDim S128x1600x1 (![0, 1, 2] : Fin 3 → Fin S128x1600x1.rank)
  reducesTo_S128x1600x1_S128x1600_d2 : S128x1600x1.ReducesTo [2] S128x1600
  h_S_ : 0 < S_.numel
  bcast_S128x1600_S128x400x1600_0_2 : S128x1600.BroadcastsInDim S128x400x1600 (![0, 2] : Fin 2 → Fin S128x400x1600.rank)
  bcast_S_S128x400x1600 : S_.BroadcastsInDim S128x400x1600 (![] : Fin 0 → Fin S128x400x1600.rank)
  shapeCasts_S128x400x1600_S128x400x16x100 : S128x400x1600.ShapeCasts S128x400x16x100
  bcast_S128x16x100_S128x1x16x100_0_2_3 : S128x16x100.BroadcastsInDim S128x1x16x100 (![0, 2, 3] : Fin 3 → Fin S128x1x16x100.rank)
  bcast_S_S128x1x16x100 : S_.BroadcastsInDim S128x1x16x100 (![] : Fin 0 → Fin S128x1x16x100.rank)
  bcast_S128x1x16x100_S128x400x16x100_0_1_2_3 : S128x1x16x100.BroadcastsInDim S128x400x16x100 (![0, 1, 2, 3] : Fin 4 → Fin S128x400x16x100.rank)
  bcast_S1x1x100_S128x1x100_0_1_2 : S1x1x100.BroadcastsInDim S128x1x100 (![0, 1, 2] : Fin 3 → Fin S128x1x100.rank)
  bcast_S128x1x1_S128x1x100_0_1_2 : S128x1x1.BroadcastsInDim S128x1x100 (![0, 1, 2] : Fin 3 → Fin S128x1x100.rank)
  bcast_S128x1x100_S128x1x1x100_0_2_3 : S128x1x100.BroadcastsInDim S128x1x1x100 (![0, 2, 3] : Fin 3 → Fin S128x1x1x100.rank)
  bcast_S128x1x1x100_S128x400x16x100_0_1_2_3 : S128x1x1x100.BroadcastsInDim S128x400x16x100 (![0, 1, 2, 3] : Fin 4 → Fin S128x400x16x100.rank)
  reducesTo_S128x400x16x100_S128x400x16_d3 : S128x400x16x100.ReducesTo [3] S128x400x16
  bcast_S128x1x1_S128x400x16_0_1_2 : S128x1x1.BroadcastsInDim S128x400x16 (![0, 1, 2] : Fin 3 → Fin S128x400x16.rank)
  gather_S128x400x100_S128x1600x1_S128x400x1600_1_2_0_0_2_2_14001_wf : GatherDims.WF S128x400x100 S128x1600x1 S128x400x1600 [1] [2] [0] [2] [0] 2 ![1, 400, 1]

variable [Facts₀]

def gather_S128x400x100_S128x1600x1_S128x400x1600_1_2_0_0_2_2_14001 : GatherDims S128x400x100 S128x1600x1 S128x400x1600 where
  offsetDims := [1]
  collapsedSliceDims := [2]
  operandBatchingDims := [0]
  startIndicesBatchingDims := [0]
  startIndexMap := [2]
  indexVectorDim := 2
  sliceSizes := ![1, 400, 1]
  wf := gather_S128x400x100_S128x1600x1_S128x400x1600_1_2_0_0_2_2_14001_wf

class Facts : Prop extends Facts₀ where

variable [Facts]
-- ==== Proof.FrameBits.lean ====
/- The frame certificate of `Kernel`, at any float instance: @main up to its one region (`hmain`), the
   arrays' contents there (`V`, a fold over the host operations before the region, never unfolded), each window's
   block at a grid point (`iblk`), what the body leaves in the result window's buffer (`out0_2`), the body's triple
   (`sound_kernel`), the proof data (`dats`), the body obligation, the run (`run_main`) and the frame claim (`frame`). -/
import proofs.«104512_j79989470921114_1_alg».proof.Proof.Gen.Kernel.Launch
import proofs.«104512_j79989470921114_1_alg».proof.Proof.Gen.Kernel.Skeleton
import proofs.«104512_j79989470921114_1_alg».proof.Proof.Gen.Kernel.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the five stretches of host operations that
    build the weight array. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
set_option maxHeartbeats 4000000 in
theorem hostOps0_4_fresh : (hostOps0_4 : List (HloOp τ sig (Elt F))).Forall fun op => op.fresh = ∅ := by
  simp only [List.Forall]; repeat' constructor

/-- @main up to the region: the five stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

set_option maxHeartbeats 4000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s and whose body leaves the block in place: the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for input window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run to the
    pipeline's frame post read at the argument arrays — `main_arg0`, staged by window 0, through the window's array;
    `main_arg1`, staged by no window, by the post's clause for the remaining buffers — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## The body's accesses -/

abbrev r0_0 : Rect S32x400x100 := Rect.unit (s := S32x400x100) ![0, 0, 0] S32x400x100.size inb_S32x400x100_S32x400x100_0_0_0
abbrev r0_1 : Rect S32x16x100 := Rect.unit (s := S32x16x100) ![0, 0, 0] S32x16x100.size inb_S32x16x100_S32x16x100_0_0_0
abbrev r0_2 : Rect S32x400x16 := Rect.unit (s := S32x400x16) ![0, 0, 0] S32x400x16.size inb_S32x400x16_S32x400x16_0_0_0

/-! ## What the body leaves in the result window's buffer -/

/-- Window 2's staging buffer after the body, from the input windows' blocks: its one store, of the whole block. -/
def out0_2 (x0 : Vec F S32x400x100 .f32) (x1 : Vec F S32x16x100 .f32) : Vec F S32x400x16 .f32 :=
  View.canon [⟨r0_2, k0_pay1 (View.ld x0 r0_0) (View.ld x1 r0_1)⟩]

/-- The store tiles the buffer, so it covers it. -/
theorem cover0_2 (p0 : Vec F S32x400x16 .f32) (y : S32x400x16.Idx) :
    ∃ pc ∈ ([⟨r0_2, p0⟩] : List (View.Piece (Elt F) S32x400x16 .f32)), y ∈ pc.1.set :=
  View.cover_of_tiled [⟨r0_2, p0⟩] S32x400x16.size (by rfl) y

/-! ## The body's triple -/

set_option maxHeartbeats 1000000 in
/-- The kernel body on whole staging memrefs, the inputs' at read contents and the result's at anything, runs to
    the continuation holding the inputs' as they were and the result's at `out0_2` of the inputs': the body loads the
    two input blocks, loads the result buffer (a value it does not use) and stores the whole result block. -/
theorem sound_kernel (c : Dev nD) (E : Set ℕ) (i : grid0.Coords) (arg1 : Memref sig .tc .vmem S32x400x100 .f32) (harg1 : arg1.IsWhole) (arg2 : Memref sig .tc .vmem S32x16x100 .f32) (harg2 : arg2.IsWhole) (arg3 : Memref sig .tc .vmem S32x400x16 .f32) (harg3 : arg3.IsWhole)
    (x0 : Vec F S32x400x100 .f32) (x1 : Vec F S32x16x100 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__pool_kernel i arg1 harg1 arg2 harg2 arg3 harg3) K := by
  simp only [cc0__pool_kernel_eq_skeleton]; unfold cc0__pool_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them (`V`); after the body at
    point `t` each input's buffer at its block and the result's at `out0_2` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents: the definition projected, so that `V` — a fold over
    @main's host operations — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and
    the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the proof data give and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs, terminates without fault, and its argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Frm

end
-- ==== Proof.FrameIdeal.lean ====
/- The frame certificate of `KernelIdeal`, at any float instance: @main up to its one region (`hmain`), the
   arrays' contents there (`V`, a fold over the host operations before the region, never unfolded), each window's
   block at a grid point (`iblk`), what the body leaves in the result window's buffer (`out0_2`), the body's triple
   (`sound_kernel`), the proof data (`dats`), the body obligation, the run (`run_main`) and the frame claim (`frame`). -/
import proofs.«104512_j79989470921114_1_alg».proof.Proof.Gen.KernelIdeal.Launch
import proofs.«104512_j79989470921114_1_alg».proof.Proof.Gen.KernelIdeal.Skeleton
import proofs.«104512_j79989470921114_1_alg».proof.Proof.Gen.KernelIdeal.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the five stretches of host operations that
    build the weight array. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
set_option maxHeartbeats 4000000 in
theorem hostOps0_4_fresh : (hostOps0_4 : List (HloOp τ sig (Elt F))).Forall fun op => op.fresh = ∅ := by
  simp only [List.Forall]; repeat' constructor

/-- @main up to the region: the five stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

set_option maxHeartbeats 4000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s and whose body leaves the block in place: the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for input window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run to the
    pipeline's frame post read at the argument arrays — `main_arg0`, staged by window 0, through the window's array;
    `main_arg1`, staged by no window, by the post's clause for the remaining buffers — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## The body's accesses -/

abbrev r0_0 : Rect S32x400x100 := Rect.unit (s := S32x400x100) ![0, 0, 0] S32x400x100.size inb_S32x400x100_S32x400x100_0_0_0
abbrev r0_1 : Rect S32x16x100 := Rect.unit (s := S32x16x100) ![0, 0, 0] S32x16x100.size inb_S32x16x100_S32x16x100_0_0_0
abbrev r0_2 : Rect S32x400x16 := Rect.unit (s := S32x400x16) ![0, 0, 0] S32x400x16.size inb_S32x400x16_S32x400x16_0_0_0

/-! ## What the body leaves in the result window's buffer -/

/-- Window 2's staging buffer after the body, from the input windows' blocks: its one store, of the whole block. -/
def out0_2 (x0 : Vec F S32x400x100 .f32) (x1 : Vec F S32x16x100 .f32) : Vec F S32x400x16 .f32 :=
  View.canon [⟨r0_2, k0_pay1 (View.ld x0 r0_0) (View.ld x1 r0_1)⟩]

/-- The store tiles the buffer, so it covers it. -/
theorem cover0_2 (p0 : Vec F S32x400x16 .f32) (y : S32x400x16.Idx) :
    ∃ pc ∈ ([⟨r0_2, p0⟩] : List (View.Piece (Elt F) S32x400x16 .f32)), y ∈ pc.1.set :=
  View.cover_of_tiled [⟨r0_2, p0⟩] S32x400x16.size (by rfl) y

/-! ## The body's triple -/

set_option maxHeartbeats 1000000 in
/-- The kernel body on whole staging memrefs, the inputs' at read contents and the result's at anything, runs to
    the continuation holding the inputs' as they were and the result's at `out0_2` of the inputs': the body loads the
    two input blocks, loads the result buffer (a value it does not use) and stores the whole result block. -/
theorem sound_kernel (c : Dev nD) (E : Set ℕ) (i : grid0.Coords) (arg1 : Memref sig .tc .vmem S32x400x100 .f32) (harg1 : arg1.IsWhole) (arg2 : Memref sig .tc .vmem S32x16x100 .f32) (harg2 : arg2.IsWhole) (arg3 : Memref sig .tc .vmem S32x400x16 .f32) (harg3 : arg3.IsWhole)
    (x0 : Vec F S32x400x100 .f32) (x1 : Vec F S32x16x100 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__pool_kernel i arg1 harg1 arg2 harg2 arg3 harg3) K := by
  simp only [cc0__pool_kernel_eq_skeleton]; unfold cc0__pool_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them (`V`); after the body at
    point `t` each input's buffer at its block and the result's at `out0_2` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents: the definition projected, so that `V` — a fold over
    @main's host operations — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and
    the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the proof data give and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs, terminates without fault, and its argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Frm

end
-- ==== Proof.KernelBlocks.lean ====
/- The result array of the idealized kernel after the run, as one function of the two arrays its windows stage: the
   body's payload read at an index (a batched contraction over the last axis), each window's block read where the
   result's block says, what every grid point writes back as a block of that one function, the cover of the result
   array by the four row blocks, and the run with the result array named. -/
import proofs.«104512_j79989470921114_1_alg».proof.Proof.FrameIdeal
import Idealize.ShloMosaic.PureOps.Ideal.Laws
import Idealize.ShloMosaic.Lib.ValueIdx
import Idealize.ShloMosaic.Lib.Pipeline.Value

noncomputable section

namespace Cert.KernelIdeal.Blocks

open Cert.KernelIdeal Cert.KernelIdeal.Gen Cert.KernelIdeal.Frm
open Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ) (ρ : Dev nD → PrngReg)

/-! ## The payload at an index -/

/-- The body's payload at an index of the result block: the block of the first operand and the block of the weight
    array contracted over their last axis, batch row by batch row (the casts to bf16 are the identity on extended
    reals, and the accumulator is the zero splat). -/
theorem pay_apply (x0 : Vec Ideal S32x400x100 .f32) (x1 : Vec Ideal S32x16x100 .f32) (b : Fin 32) (ch : Fin 400) (p : Fin 16) :
    (k0_pay1 (F := Ideal) x0 x1 : S32x400x16.Idx → EReal) (ix3 b ch p)
      = ∑ l : Fin 100, (x0 : S32x400x100.Idx → EReal) (ix3 b ch l) * (x1 : S32x16x100.Idx → EReal) (ix3 b p l) := by
  unfold k0_pay1
  refine (Ideal.matmul_constant_zero_apply dot_S32x400x100_S32x16x100_S32x400x16_2_2_1_1_0_0 none _ _ _).trans ?_
  rw [← Equiv.sum_comp (contrEquiv1 dot_S32x400x100_S32x16x100_S32x400x16_2_2_1_1_0_0 100 rfl rfl).symm]
  refine Finset.sum_congr rfl fun l _ => ?_
  have hl : dot_S32x400x100_S32x16x100_S32x400x16_2_2_1_1_0_0.lhsIdx (ix3 b ch p)
      ((contrEquiv1 dot_S32x400x100_S32x16x100_S32x400x16_2_2_1_1_0_0 100 rfl rfl).symm l) = ix3 b ch l := by
    funext a; apply Fin.ext
    match a with
    | ⟨0, _⟩ => rfl
    | ⟨1, _⟩ => rfl
    | ⟨2, _⟩ =>
      exact (DotDims.lhsIdx_val_of_single dot_S32x400x100_S32x16x100_S32x400x16_2_2_1_1_0_0 (cl := 2) rfl _ _).trans
        (contrEquiv1_symm_val dot_S32x400x100_S32x16x100_S32x400x16_2_2_1_1_0_0 100 rfl rfl l)
  have hr : dot_S32x400x100_S32x16x100_S32x400x16_2_2_1_1_0_0.rhsIdx (ix3 b ch p)
      ((contrEquiv1 dot_S32x400x100_S32x16x100_S32x400x16_2_2_1_1_0_0 100 rfl rfl).symm l) = ix3 b p l := by
    funext a; apply Fin.ext
    match a with
    | ⟨0, _⟩ => rfl
    | ⟨1, _⟩ => rfl
    | ⟨2, _⟩ =>
      exact (DotDims.rhsIdx_val_of_single dot_S32x400x100_S32x16x100_S32x400x16_2_2_1_1_0_0 (cr := 2) rfl _ _).trans
        (contrEquiv1_symm_val dot_S32x400x100_S32x16x100_S32x400x16_2_2_1_1_0_0 100 rfl rfl l)
  rw [shapeCast_self, hl, hr]
  rfl

/-! ## The result as one function of the staged arrays -/

/-- Entry (b, c, p) of the result: the contraction over `l` of row (b, c) of the first array with row (b, p) of the second. -/
def G (X : S128x400x100.Idx → EReal) (Wt : S128x16x100.Idx → EReal) : S128x400x16.Idx → EReal :=
  fun i => ∑ l : Fin 100, X (ix3 (i 0) (i 1) l) * Wt (ix3 (i 0) (i 2) l)

theorem G_apply (X : S128x400x100.Idx → EReal) (Wt : S128x16x100.Idx → EReal) (b : Fin 128) (ch : Fin 400) (p : Fin 16) :
    G X Wt (ix3 b ch p) = ∑ l : Fin 100, X (ix3 b ch l) * Wt (ix3 b p l) := rfl

theorem hz : (![0, 0, 0] : Fin 3 → Nat) = fun _ => 0 := funext fun a => by fin_cases a <;> rfl

/-- The windows' index maps, decided over the grid: at point `t` every window is at block `t` of the batch axis and
    block 0 of the other two. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Window 0's block at point `t` read at an index: the first array at batch row `32 t + y₀`. -/
theorem blk0_at (c : Dev nD) (t : Fin cfg0.N) (y : S32x400x100.Idx) (k : S128x400x100.Idx)
    (h0 : (k 0).val = 32 * t.val + (y 0).val) (h1 : (k 1).val = (y 1).val) (h2 : (k 2).val = (y 2).val) :
    (iblk m c 0 t : Vec Ideal S32x400x100 .f32) y = (V m c main_arg0 : S128x400x100.Idx → EReal) k := by
  obtain ⟨e0, e1, e2, -⟩ := idx_facts t
  show V m c main_arg0 (((cfg0.win 0).blk t).view.emb y) = V m c main_arg0 k
  refine congrArg (V m c main_arg0) ?_
  funext a; apply Fin.ext
  match a with
  | ⟨0, _⟩ => show win0_0.index t (0 : Fin 3) * 32 + 1 * (y 0).val = (k 0).val; omega
  | ⟨1, _⟩ => show win0_0.index t (1 : Fin 3) * 400 + 1 * (y 1).val = (k 1).val; omega
  | ⟨2, _⟩ => show win0_0.index t (2 : Fin 3) * 100 + 1 * (y 2).val = (k 2).val; omega

/-- Window 1's block at point `t` read at an index: the weight array at batch row `32 t + y₀`. -/
theorem blk1_at (c : Dev nD) (t : Fin cfg0.N) (y : S32x16x100.Idx) (k : S128x16x100.Idx)
    (h0 : (k 0).val = 32 * t.val + (y 0).val) (h1 : (k 1).val = (y 1).val) (h2 : (k 2).val = (y 2).val) :
    (iblk m c 1 t : Vec Ideal S32x16x100 .f32) y = (V m c main_v101 : S128x16x100.Idx → EReal) k := by
  obtain ⟨-, -, -, e0, e1, e2, -⟩ := idx_facts t
  show V m c main_v101 (((cfg0.win 1).blk t).view.emb y) = V m c main_v101 k
  refine congrArg (V m c main_v101) ?_
  funext a; apply Fin.ext
  match a with
  | ⟨0, _⟩ => show win0_1.index t (0 : Fin 3) * 32 + 1 * (y 0).val = (k 0).val; omega
  | ⟨1, _⟩ => show win0_1.index t (1 : Fin 3) * 16 + 1 * (y 1).val = (k 1).val; omega
  | ⟨2, _⟩ => show win0_1.index t (2 : Fin 3) * 100 + 1 * (y 2).val = (k 2).val; omega

/-- The result window's block at point `t` sits at batch rows `32 t … 32 t + 31` of the result array. -/
theorem emb2_val (t : Fin cfg0.N) (b : Fin 32) (ch : Fin 400) (p : Fin 16) :
    ((((cfg0.win 2).blk t).view.emb (ix3 b ch p) : S128x400x16.Idx) 0).val = 32 * t.val + b.val
    ∧ ((((cfg0.win 2).blk t).view.emb (ix3 b ch p) : S128x400x16.Idx) 1).val = ch.val
    ∧ ((((cfg0.win 2).blk t).view.emb (ix3 b ch p) : S128x400x16.Idx) 2).val = p.val := by
  obtain ⟨-, -, -, -, -, -, e0, e1, e2⟩ := idx_facts t
  refine ⟨?_, ?_, ?_⟩
  · show win0_2.index t (0 : Fin 3) * 32 + 1 * b.val = _; omega
  · show win0_2.index t (1 : Fin 3) * 400 + 1 * ch.val = _; omega
  · show win0_2.index t (2 : Fin 3) * 16 + 1 * p.val = _; omega

/-! ## What a point writes back -/

/-- What point `t` writes back is block `t` of `G` of the two staged arrays as the region finds them. -/
theorem flushed_eq (c : Dev nD) (t : Fin cfg0.N) :
    (dats m 0 c).flushed 2 t = ((cfg0.win 2).blk t).view.read (Elt Ideal) (G (V m c main_arg0) (V m c main_v101)) := by
  show (cfg0.win 2).cut (grid0.coords t) ((dats m 0 c).after 2 t) = _
  rw [after0_2]
  unfold out0_2
  rw [View.canon_unit_zero hz]
  simp only [View.ld_unit_zero (S := S32x400x100) hz, View.ld_unit_zero (S := S32x16x100) hz]
  funext j
  obtain ⟨b, ch, p, rfl⟩ : ∃ (b : Fin 32) (ch : Fin 400) (p : Fin 16), j = ix3 b ch p := ⟨j 0, j 1, j 2, eq_ix3 j⟩
  obtain ⟨q0, q1, q2⟩ := emb2_val t b ch p
  show (k0_pay1 (F := Ideal) (iblk m c 0 t) (iblk m c 1 t) : S32x400x16.Idx → EReal) (ix3 b ch p)
    = G (V m c main_arg0) (V m c main_v101) (((cfg0.win 2).blk t).view.emb (ix3 b ch p))
  refine (pay_apply (iblk m c 0 t) (iblk m c 1 t) b ch p).trans ?_
  unfold G
  refine Finset.sum_congr rfl fun l _ => ?_
  refine congrArg₂ (· * ·) ?_ ?_
  · exact blk0_at m c t (ix3 b ch l) _ q0 q1 rfl
  · exact blk1_at m c t (ix3 b p l) _ q0 q2 rfl

/-! ## The cover, the array after the run, and the run -/

/-- An index of the result array is in point `t`'s block iff each coordinate is in the block's range on its axis. -/
theorem mem_blk (t : Fin cfg0.N) (i : S128x400x16.Idx) :
    i ∈ ((cfg0.win 2).blk t).view.set ↔ ∀ a : Fin 3, win0_2.index t a * S32x400x16.size a ≤ (i a).val ∧ (i a).val < win0_2.index t a * S32x400x16.size a + S32x400x16.size a := by
  show i ∈ ((View.whole main_v102).slice (win0_2.rect t)).set ↔ _
  rw [View.set_slice_whole, Rect.mem_set_unit]
  exact Iff.rfl

/-- Every index of the result array is in some point's block: batch row `r` is in the block of point `r / 32`. -/
theorem cover (i : S128x400x16.Idx) : ∃ t : Fin cfg0.N, (cfg0.win 2).flush t = true ∧ i ∈ ((cfg0.win 2).blk t).view.set := by
  have hi0 : (i 0).val < 128 := (i 0).isLt
  have hi1 : (i 1).val < 400 := (i 1).isLt
  have hi2 : (i 2).val < 16 := (i 2).isLt
  have hN : cfg0.N = 4 := N_0
  let t : Fin cfg0.N := ⟨(i 0).val / 32, by rw [hN]; omega⟩
  have ht : t.val = (i 0).val / 32 := rfl
  obtain ⟨-, -, -, -, -, -, e0, e1, e2⟩ := idx_facts t
  refine ⟨t, flush0_2 t, ?_⟩
  rw [mem_blk]
  intro a
  match a with
  | ⟨0, _⟩ => show win0_2.index t (0 : Fin 3) * 32 ≤ (i 0).val ∧ (i 0).val < win0_2.index t (0 : Fin 3) * 32 + 32; omega
  | ⟨1, _⟩ => show win0_2.index t (1 : Fin 3) * 400 ≤ (i 1).val ∧ (i 1).val < win0_2.index t (1 : Fin 3) * 400 + 400; omega
  | ⟨2, _⟩ => show win0_2.index t (2 : Fin 3) * 16 ≤ (i 2).val ∧ (i 2).val < win0_2.index t (2 : Fin 3) * 16 + 16; omega

/-- The result array after the run is `G` of the two staged arrays. -/
theorem final (c : Dev nD) : (dats m 0 c).arrAt 2 cfg0.N = G (V m c main_arg0) (V m c main_v101) :=
  (dats m 0 c).arrAt_eq_of_cover 2 (G (V m c main_arg0) (V m c main_v101)) (fun t _ => flushed_eq m c t) cover

/-- Entry (b, c, p) of the result array after the run: `G` there, which `G_apply` spells as the contraction. -/
theorem out_entry (c : Dev nD) (b : Fin 128) (ch : Fin 400) (p : Fin 16) :
    ((dats m 0 c).arrAt 2 cfg0.N : S128x400x16.Idx → EReal) (ix3 b ch p)
      = G (V m c main_arg0) (V m c main_v101) (ix3 b ch p) :=
  congrFun (final m c) (ix3 b ch p)

/-- The run with the result array named: it ends at `G` of the two staged arrays, the arguments as launched. -/
theorem run_value : θ_run defs (onTc (τ := τ) (main (F := Ideal))) ⟨m, fun _ => 0, ρ⟩ (fun r => ∀ c : Dev nD,
      r.2.mem ((c.tc : Thread nD τ).loc main_v102) = G (V m c main_arg0) (V m c main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.Blocks

end
-- ==== Proof.Spec.lean ====
/-
  Temporal pooling, stated once and over no program.

  For a batch b, a channel c and an output bin p, the pooled value averages up to 100 samples. Sample j of the
  bin sits between the two neighbouring input frames lo and lo + 1, at the fraction fr between them, and counts only
  while j is inside the bin (the weight mk is 1 there and 0 outside); the sum of the counted samples is divided
  by the bin's size den.

  Two arrangements of that number are stated here.  The first interpolates each sample from the two frames and then
  sums:  ( 0 + sum_j (x[lo_j] * (1 - fr_j) + x[lo_j + 1] * fr_j) * mk_j ) / den.
  The second first collects, for every input frame l, the total weight W[l] that frame receives from all the
  samples — (1 - fr_j) * mk_j / den from each sample whose lower frame is l, and fr_j * mk_j / den from each sample
  whose upper frame is l — and then contracts the input against it:  sum_l x[l] * W[l].
-/
import Idealize.ShloMosaic.PureOps.Ideal
import Idealize.ShloMosaic.Lib.ValueIdx

noncomputable section

namespace Cert.Pool

open Idealize.ShloMosaic Idealize.ShloMosaic.ValueIdx

/-- The input array's shape: batch, channel, frame. -/
abbrev SX : Shape := ⟨3, ![128, 400, 100]⟩

/-- A frame number as a position on the frame axis. Every frame number met is below 100, so the remainder is
    the number itself; taking it keeps the definition total. -/
def pos100 (n : ℕ) : Fin 100 := ⟨n % 100, Nat.mod_lt _ (by decide)⟩

/-- Interpolate, weigh, sum over the samples of the bin, divide by the bin's size. -/
def poolRef (x : SX.Idx → EReal) (lo : Fin 128 → Fin 16 → Fin 100 → ℕ) (fr : Fin 128 → Fin 16 → Fin 100 → EReal)
    (mk : Fin 128 → Fin 100 → EReal) (den : Fin 128 → EReal) (b : Fin 128) (c : Fin 400) (p : Fin 16) : EReal :=
  Ideal.div
    (0 + ∑ j : Fin 100, (x (ix3 b c (pos100 (lo b p j))) * (1 - fr b p j)
        + x (ix3 b c (pos100 (lo b p j + 1))) * fr b p j) * mk b j)
    (den b)

/-- The total weight input frame l receives in bin p of batch b: from zero, first the lower-frame shares of the
    samples whose lower frame is l, then the upper-frame shares of the samples whose upper frame is l. -/
def poolW (lo : Fin 128 → Fin 16 → Fin 100 → ℕ) (fr : Fin 128 → Fin 16 → Fin 100 → EReal)
    (mk : Fin 128 → Fin 100 → EReal) (den : Fin 128 → EReal) (b : Fin 128) (p : Fin 16) (l : Fin 100) : EReal :=
  (0 + ∑ j ∈ Finset.univ.filter (fun j : Fin 100 => lo b p j = l.val), Ideal.div ((1 - fr b p j) * mk b j) (den b))
    + ∑ j ∈ Finset.univ.filter (fun j : Fin 100 => lo b p j + 1 = l.val), Ideal.div (fr b p j * mk b j) (den b)

/-- Contract the input's frames against the collected weights. -/
def poolKer (x : SX.Idx → EReal) (lo : Fin 128 → Fin 16 → Fin 100 → ℕ) (fr : Fin 128 → Fin 16 → Fin 100 → EReal)
    (mk : Fin 128 → Fin 100 → EReal) (den : Fin 128 → EReal) (b : Fin 128) (c : Fin 400) (p : Fin 16) : EReal :=
  ∑ l : Fin 100, x (ix3 b c l) * poolW lo fr mk den b p l

end Cert.Pool

end
-- ==== Proof.LibScatterScalar.lean ====
/-
  A float scatter with an `add` body whose every update is one scalar aimed at one entry of a matrix: the update at
  position `j` of a length-`N` vector goes to entry `(r, c)` where `r` and `c` are the two words in row `j` of an
  `[N, 2]` index array, read signed. On the extended reals the result at `(r, c)` is the operand there plus the sum of
  the updates aimed at `(r, c)`; an update whose words name no entry is dropped. Two such scatters into zero matrices
  with the same number of columns, the second with at least as many rows, agree on the rows of the first.
-/
import Idealize.ShloMosaic.PureOps.Ideal
import Idealize.ShloMosaic.PureOps.Dims
import Idealize.ShloMosaic.Lib.ValueIdx

noncomputable section

open scoped BigOperators

namespace Cert.RefSide

open Idealize.ShloMosaic Idealize.ShloMosaic.ValueIdx

/-- An update lands on the entry `g` exactly when, on every axis, its start plus its window coordinate is `g`'s
    coordinate. -/
theorem resultIdx?_eq_some_iff {s si u : Shape} {w : Nat} (d : ScatterDims s si u) (j : u.Idx) (idx : IVec si w)
    (g : s.Idx) :
    d.resultIdx? j idx = some g ↔ ∀ a, d.start j idx a + d.window j a = ((g a).val : Int) := by
  unfold ScatterDims.resultIdx?
  constructor
  · intro h
    split at h
    · rename_i hc
      intro a
      have e := congrFun (Option.some.inj h) a
      have e' : (d.start j idx a + d.window j a).toNat = (g a).val := congrArg Fin.val e
      have := (hc a).1
      omega
    · exact absurd h (by simp)
  · intro h
    have hc : ∀ a, 0 ≤ d.start j idx a + d.window j a ∧ d.start j idx a + d.window j a < s.size a := fun a => by
      rw [h a]; exact ⟨Int.natCast_nonneg _, by exact_mod_cast (g a).isLt⟩
    rw [dif_pos hc]
    refine congrArg some (funext fun a => Fin.ext ?_)
    show (d.start j idx a + d.window j a).toNat = (g a).val
    rw [h a]; exact Int.toNat_natCast _

/-- The dimension numbers of the scatter: no window axes, both operand axes inserted, word `0` of a row of the index
    array the row coordinate and word `1` the column coordinate. -/
def sd (R C N : Nat) (wf : ScatterDims.WF ⟨2, ![R, C]⟩ ⟨2, ![N, 2]⟩ ⟨1, ![N]⟩ [] [0, 1] [0, 1] 1) :
    ScatterDims ⟨2, ![R, C]⟩ ⟨2, ![N, 2]⟩ ⟨1, ![N]⟩ where
  updateWindowDims := []
  insertedWindowDims := [0, 1]
  scatterDimsToOperandDims := [0, 1]
  indexVectorDim := 1
  wf := wf

variable {R C N : Nat} (wf : ScatterDims.WF ⟨2, ![R, C]⟩ ⟨2, ![N, 2]⟩ ⟨1, ![N]⟩ [] [0, 1] [0, 1] 1)

theorem sd_sKept : (sd R C N wf).sKept = [] := by
  show (List.finRange 2).filter (fun a : Fin 2 => a ∉ ([0, 1] : List (Fin 2))) = []
  decide

theorem sd_window (j : (⟨1, ![N]⟩ : Shape).Idx) (a : Fin 2) : (sd R C N wf).window j a = 0 := by
  unfold ScatterDims.window
  rw [dif_neg (by rw [sd_sKept]; exact List.not_mem_nil)]

theorem sd_siIdx (j : (⟨1, ![N]⟩ : Shape).Idx) (c : Fin 2) : (sd R C N wf).siIdx j c = ix2 (j 0) c := by
  funext b
  match b with
  | ⟨0, _⟩ => rfl
  | ⟨1, _⟩ => rfl

theorem sd_mem (a : Fin 2) : a ∈ (sd R C N wf).scatterDimsToOperandDims := by
  show a ∈ ([0, 1] : List (Fin 2))
  fin_cases a <;> decide

theorem sd_start (j : (⟨1, ![N]⟩ : Shape).Idx) {w : Nat} (idx : IVec ⟨2, ![N, 2]⟩ w) (a : Fin 2) :
    (sd R C N wf).start j idx a = (idx (ix2 (j 0) a)).toInt := by
  unfold ScatterDims.start
  rw [dif_pos (sd_mem wf a)]
  match a with
  | ⟨0, _⟩ => exact congrArg (fun k => (idx k).toInt) (sd_siIdx wf j 0)
  | ⟨1, _⟩ => exact congrArg (fun k => (idx k).toInt) (sd_siIdx wf j 1)

/-- Update `j` lands on entry `(r, c)` exactly when the two words of row `j` of the index array are `r` and `c`. -/
theorem sd_resultIdx?_iff (j : (⟨1, ![N]⟩ : Shape).Idx) {w : Nat} (idx : IVec ⟨2, ![N, 2]⟩ w) (r : Fin R) (c : Fin C) :
    (sd R C N wf).resultIdx? j idx = some (ix2 r c) ↔
      (idx (ix2 (j 0) 0)).toInt = (r.val : Int) ∧ (idx (ix2 (j 0) 1)).toInt = (c.val : Int) := by
  rw [resultIdx?_eq_some_iff]
  constructor
  · intro h
    have h0 := h 0
    have h1 := h 1
    rw [sd_start, sd_window, Nat.cast_zero, add_zero] at h0 h1
    exact ⟨h0, h1⟩
  · intro h a
    rw [sd_start, sd_window, Nat.cast_zero, add_zero]
    match a with
    | ⟨0, _⟩ => exact h.1
    | ⟨1, _⟩ => exact h.2

/-- The scatter read at an entry: the operand there plus the updates whose two index words name the entry. -/
theorem sd_scatterAdd_apply {w : Nat} (x : (⟨2, ![R, C]⟩ : Shape).Idx → EReal) (idx : IVec ⟨2, ![N, 2]⟩ w)
    (upd : (⟨1, ![N]⟩ : Shape).Idx → EReal) (r : Fin R) (c : Fin C) :
    Ideal.hostScatterAdd (sd R C N wf) x idx upd (ix2 r c)
      = x (ix2 r c) + ∑ j ∈ Finset.univ.filter (fun j : (⟨1, ![N]⟩ : Shape).Idx =>
          (idx (ix2 (j 0) 0)).toInt = (r.val : Int) ∧ (idx (ix2 (j 0) 1)).toInt = (c.val : Int)), upd j := by
  unfold Ideal.hostScatterAdd
  congr 1
  exact Finset.sum_congr (Finset.filter_congr fun j _ => sd_resultIdx?_iff wf j idx r c) fun _ _ => rfl

/-- Two scatters of the same updates at the same indices into matrices that are zero, the second with at least as
    many rows: row `k` of the first is row `k` of the second. The updates aimed at `(k, n)` are the same on both sides,
    whatever the other updates do (an update aimed past the first matrix's rows lands in the second's extra rows or
    nowhere, never on row `k`). -/
theorem sd_scatterAdd_rows {R' : Nat} (hR : R ≤ R')
    (wf' : ScatterDims.WF ⟨2, ![R', C]⟩ ⟨2, ![N, 2]⟩ ⟨1, ![N]⟩ [] [0, 1] [0, 1] 1) {w : Nat}
    (z : (⟨2, ![R, C]⟩ : Shape).Idx → EReal) (z' : (⟨2, ![R', C]⟩ : Shape).Idx → EReal)
    (hz : ∀ i, z i = 0) (hz' : ∀ i, z' i = 0) (idx : IVec ⟨2, ![N, 2]⟩ w) (upd : (⟨1, ![N]⟩ : Shape).Idx → EReal)
    (k : Fin R) (n : Fin C) :
    Ideal.hostScatterAdd (sd R' C N wf') z' idx upd (ix2 (Fin.castLE hR k) n)
      = Ideal.hostScatterAdd (sd R C N wf) z idx upd (ix2 k n) := by
  rw [sd_scatterAdd_apply, sd_scatterAdd_apply, hz, hz']
  rfl

end Cert.RefSide

end
-- ==== Proof.LibScatterAdd3.lean ====
/-
  A float scatter with an `add` body into a rank-3 array `[A, B, L]`, whose updates are also laid out `[A, B, L]`
  and are aimed one scalar at a time by an index array `[A, B, L, 3]`: the update at position `(a', b', k)` goes to
  the entry named by the three words of row `(a', b', k)` of the index array, read signed. On the extended reals the
  result at `(a, b, l)` is the operand there plus the sum of the updates whose three words are exactly
  `(a, b, l)`; an update whose words name no entry is dropped.

  When the first two words of every row are the row's own first two coordinates (each update stays in its own
  `(a, b)` fibre and only chooses where along the last axis it lands), the sum at `(a, b, l)` runs over the last
  coordinate `k` alone: the updates `(a, b, k)` whose third word is `l`.

  Also here: a rank-3 index set is the product of its three coordinate ranges, so a sum over it is the triple sum.
-/
import proofs.«104512_j79989470921114_1_alg».proof.Proof.LibScatterScalar

noncomputable section

open scoped BigOperators

namespace Cert.Scatter3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The dimension numbers of the scatter: no window axes, all three operand axes inserted, word `t` of a row of
    the index array the coordinate on axis `t`. -/
def sd3 (A B L : Nat)
    (wf : ScatterDims.WF ⟨3, ![A, B, L]⟩ ⟨4, ![A, B, L, 3]⟩ ⟨3, ![A, B, L]⟩ [] [0, 1, 2] [0, 1, 2] 3) :
    ScatterDims ⟨3, ![A, B, L]⟩ ⟨4, ![A, B, L, 3]⟩ ⟨3, ![A, B, L]⟩ where
  updateWindowDims := []
  insertedWindowDims := [0, 1, 2]
  scatterDimsToOperandDims := [0, 1, 2]
  indexVectorDim := 3
  wf := wf

variable {A B L : Nat}
  (wf : ScatterDims.WF ⟨3, ![A, B, L]⟩ ⟨4, ![A, B, L, 3]⟩ ⟨3, ![A, B, L]⟩ [] [0, 1, 2] [0, 1, 2] 3)

theorem sd3_sKept : (sd3 A B L wf).sKept = [] := by
  show (List.finRange 3).filter (fun a : Fin 3 => a ∉ ([0, 1, 2] : List (Fin 3))) = []
  decide

theorem sd3_window (j : (⟨3, ![A, B, L]⟩ : Shape).Idx) (a : Fin 3) : (sd3 A B L wf).window j a = 0 := by
  unfold ScatterDims.window
  rw [dif_neg (by rw [sd3_sKept]; exact List.not_mem_nil)]

theorem sd3_siIdx (j : (⟨3, ![A, B, L]⟩ : Shape).Idx) (c : Fin 3) :
    (sd3 A B L wf).siIdx j c = ix4 (j 0) (j 1) (j 2) c := by
  funext b
  match b with
  | ⟨0, _⟩ => rfl
  | ⟨1, _⟩ => rfl
  | ⟨2, _⟩ => rfl
  | ⟨3, _⟩ => rfl

theorem sd3_mem (a : Fin 3) : a ∈ (sd3 A B L wf).scatterDimsToOperandDims := by
  show a ∈ ([0, 1, 2] : List (Fin 3))
  fin_cases a <;> decide

theorem sd3_start (j : (⟨3, ![A, B, L]⟩ : Shape).Idx) {w : Nat} (idx : IVec ⟨4, ![A, B, L, 3]⟩ w) (a : Fin 3) :
    (sd3 A B L wf).start j idx a = (idx (ix4 (j 0) (j 1) (j 2) a)).toInt := by
  unfold ScatterDims.start
  rw [dif_pos (sd3_mem wf a)]
  match a with
  | ⟨0, _⟩ => exact congrArg (fun k => (idx k).toInt) (sd3_siIdx wf j 0)
  | ⟨1, _⟩ => exact congrArg (fun k => (idx k).toInt) (sd3_siIdx wf j 1)
  | ⟨2, _⟩ => exact congrArg (fun k => (idx k).toInt) (sd3_siIdx wf j 2)

/-- Update `j` lands on entry `(a, b, l)` exactly when the three words of row `j` of the index array are
    `a`, `b` and `l`. -/
theorem sd3_resultIdx?_iff (j : (⟨3, ![A, B, L]⟩ : Shape).Idx) {w : Nat} (idx : IVec ⟨4, ![A, B, L, 3]⟩ w)
    (a : Fin A) (b : Fin B) (l : Fin L) :
    (sd3 A B L wf).resultIdx? j idx = some (ix3 a b l) ↔
      (idx (ix4 (j 0) (j 1) (j 2) 0)).toInt = (a.val : Int) ∧ (idx (ix4 (j 0) (j 1) (j 2) 1)).toInt = (b.val : Int)
        ∧ (idx (ix4 (j 0) (j 1) (j 2) 2)).toInt = (l.val : Int) := by
  rw [Cert.RefSide.resultIdx?_eq_some_iff]
  constructor
  · intro h
    have h0 := h 0
    have h1 := h 1
    have h2 := h 2
    rw [sd3_start, sd3_window, Nat.cast_zero, add_zero] at h0 h1 h2
    exact ⟨h0, h1, h2⟩
  · intro h t
    rw [sd3_start, sd3_window, Nat.cast_zero, add_zero]
    match t with
    | ⟨0, _⟩ => exact h.1
    | ⟨1, _⟩ => exact h.2.1
    | ⟨2, _⟩ => exact h.2.2

/-- The scatter read at an entry: the operand there plus the updates whose three index words name the entry. -/
theorem sd3_scatterAdd_apply {w : Nat} (x : (⟨3, ![A, B, L]⟩ : Shape).Idx → EReal) (idx : IVec ⟨4, ![A, B, L, 3]⟩ w)
    (upd : (⟨3, ![A, B, L]⟩ : Shape).Idx → EReal) (a : Fin A) (b : Fin B) (l : Fin L) :
    Ideal.hostScatterAdd (sd3 A B L wf) x idx upd (ix3 a b l)
      = x (ix3 a b l) + ∑ j ∈ Finset.univ.filter (fun j : (⟨3, ![A, B, L]⟩ : Shape).Idx =>
          (idx (ix4 (j 0) (j 1) (j 2) 0)).toInt = (a.val : Int) ∧ (idx (ix4 (j 0) (j 1) (j 2) 1)).toInt = (b.val : Int)
            ∧ (idx (ix4 (j 0) (j 1) (j 2) 2)).toInt = (l.val : Int)), upd j := by
  unfold Ideal.hostScatterAdd
  congr 1
  exact Finset.sum_congr (Finset.filter_congr fun j _ => sd3_resultIdx?_iff wf j idx a b l) fun _ _ => rfl

/-- When the first two words of every row are the row's own first two coordinates, the updates reaching
    `(a, b, l)` are those of the fibre `(a, b, ·)` whose third word is `l`. -/
theorem sd3_scatterAdd_fibre {w : Nat} (x : (⟨3, ![A, B, L]⟩ : Shape).Idx → EReal) (idx : IVec ⟨4, ![A, B, L, 3]⟩ w)
    (upd : (⟨3, ![A, B, L]⟩ : Shape).Idx → EReal)
    (h0 : ∀ (a' : Fin A) (b' : Fin B) (k : Fin L), (idx (ix4 a' b' k 0)).toInt = (a'.val : Int))
    (h1 : ∀ (a' : Fin A) (b' : Fin B) (k : Fin L), (idx (ix4 a' b' k 1)).toInt = (b'.val : Int))
    (a : Fin A) (b : Fin B) (l : Fin L) :
    Ideal.hostScatterAdd (sd3 A B L wf) x idx upd (ix3 a b l)
      = x (ix3 a b l) + ∑ k ∈ Finset.univ.filter (fun k : Fin L => (idx (ix4 a b k 2)).toInt = (l.val : Int)),
          upd (ix3 a b k) := by
  rw [sd3_scatterAdd_apply, Finset.sum_filter, sum_idx3, Finset.sum_filter]
  congr 1
  rw [Finset.sum_eq_single a, Finset.sum_eq_single b]
  · refine Finset.sum_congr rfl fun k _ => ?_
    show (if (idx (ix4 a b k 0)).toInt = (a.val : Int) ∧ (idx (ix4 a b k 1)).toInt = (b.val : Int)
        ∧ (idx (ix4 a b k 2)).toInt = (l.val : Int) then upd (ix3 a b k) else 0) = _
    rw [h0, h1]
    simp only [true_and]
  · intro b' _ hb
    refine Finset.sum_eq_zero fun k _ => ?_
    show (if (idx (ix4 a b' k 0)).toInt = (a.val : Int) ∧ (idx (ix4 a b' k 1)).toInt = (b.val : Int)
        ∧ (idx (ix4 a b' k 2)).toInt = (l.val : Int) then upd (ix3 a b' k) else 0) = 0
    rw [if_neg]
    rw [h1]
    intro h
    exact hb (Fin.ext (by exact_mod_cast h.2.1))
  · intro h; exact absurd (Finset.mem_univ _) h
  · intro a' _ ha
    refine Finset.sum_eq_zero fun b' _ => Finset.sum_eq_zero fun k _ => ?_
    show (if (idx (ix4 a' b' k 0)).toInt = (a.val : Int) ∧ (idx (ix4 a' b' k 1)).toInt = (b.val : Int)
        ∧ (idx (ix4 a' b' k 2)).toInt = (l.val : Int) then upd (ix3 a' b' k) else 0) = 0
    rw [if_neg]
    rw [h0]
    intro h
    exact ha (Fin.ext (by exact_mod_cast h.1))
  · intro h; exact absurd (Finset.mem_univ _) h

end Cert.Scatter3

end
-- ==== Proof.KernelTail.lean ====
/-
  The weight array the kernel's host side builds, read at an entry.

  From the lower frame number i0, the fraction fr, the in-bin weight (an array [128, 1, 100]) and the bin size (an
  array [128]) the host side forms, for every sample (b, p, j), the lower share (1 - fr) * weight / size and the
  upper share fr * weight / size, and adds each share into a zero array [128, 16, 100] at the position named by a row
  of three index words: the batch number b, the bin number p, and the frame number — i0 for the lower shares, i0 + 1
  for the upper ones. The first two words of a row are the sample's own batch and bin, so a sample only chooses the
  frame its share lands on, and the entry (b, p, l) collects the lower shares of the samples j of bin (b, p) with
  i0 = l and then the upper shares of those with i0 + 1 = l: the collected weight of the specification.

  Each index word passes through a normalisation that adds the axis length to a negative word; batch and bin numbers
  and frame numbers between 0 and 99 are not negative, so it changes nothing here.
-/
import proofs.«104512_j79989470921114_1_alg».proof.Proof.Gen.KernelIdeal
import proofs.«104512_j79989470921114_1_alg».proof.Proof.Spec
import proofs.«104512_j79989470921114_1_alg».proof.Proof.LibScatterAdd3
import Idealize.ShloMosaic.Lib.Pipeline.Value
import Idealize.ShloMosaic.PureOps.Ideal.Laws

noncomputable section

open scoped BigOperators

namespace Cert.KernelIdeal.Tail

open Idealize.ShloMosaic Idealize.ShloMosaic.ValueIdx Cert.KernelIdeal Cert.KernelIdeal.Gen

/-- Integer and float arrays at the exact instance. -/
abbrev IA (S : Shape) := IVec S 32
abbrev FA (S : Shape) := FVec Ideal S .f32

/-! ## The stages -/

/-- A scalar integer constant spread over [128, 16, 100]. -/
def splatI (n : BitVec 32) : IA S128x16x100 :=
  broadcastInDim S128x16x100 ![] bcast_S_S128x16x100 (constantI S_ 32 n)

/-- Add the axis length `n` to the negative words. -/
def wrap (n : BitVec 32) (x : IA S128x16x100) : IA S128x16x100 :=
  select (cmpi .slt x (splatI 0#32)) (addi x (splatI n)) x

/-- The batch number of every sample, and its bin number. -/
def rowB : IA S128x16x100 :=
  broadcastInDim S128x16x100 ![0, 1, 2] bcast_S128x1x1_S128x16x100_0_1_2
    (broadcastInDim S128x1x1 ![0] bcast_S128_S128x1x1_0 (iotaInDim S128 32 0))
def colP : IA S128x16x100 :=
  broadcastInDim S128x16x100 ![0, 1, 2] bcast_S1x16x1_S128x16x100_0_1_2
    (broadcastInDim S1x16x1 ![1] bcast_S16_S1x16x1_1 (iotaInDim S16 32 0))

/-- An array [128, 16, 100] as one column of index words [128, 16, 100, 1]. -/
def asWord (x : IA S128x16x100) : IA S128x16x100x1 :=
  broadcastInDim S128x16x100x1 ![0, 1, 2] bcast_S128x16x100_S128x16x100x1_0_1_2 x

/-- The rows of three index words: batch, bin, frame. -/
def idxArr (i : IA S128x16x100) : IA S128x16x100x3 :=
  concatenate S128x16x100x3 3
    [⟨S128x16x100x1, asWord (wrap 128#32 rowB)⟩, ⟨S128x16x100x1, asWord (wrap 16#32 colP)⟩,
      ⟨S128x16x100x1, asWord (wrap 100#32 i)⟩]
    concatenates_S128x16x100x1_S128x16x100x1_S128x16x100x1_S128x16x100x3_d3

/-- The in-bin weight and the bin size spread over the samples. -/
def spreadMk (mkv : FA S128x1x100) : FA S128x16x100 :=
  broadcastInDim S128x16x100 ![0, 1, 2] bcast_S128x1x100_S128x16x100_0_1_2 mkv
def spreadDen (denv : FA S128) : FA S128x16x100 :=
  broadcastInDim S128x16x100 ![0, 1, 2] bcast_S128x1x1_S128x16x100_0_1_2
    (broadcastInDim S128x1x1 ![0] bcast_S128_S128x1x1_0 denv)

/-- The constants one and zero spread over the samples. -/
def oneF : FA S128x16x100 :=
  broadcastInDim S128x16x100 ![] bcast_S_S128x16x100 (constant (F := Ideal) S_ .f32 0x3F800000#32)
def zeroF : FA S128x16x100 :=
  broadcastInDim S128x16x100 ![] bcast_S_S128x16x100 (constant (F := Ideal) S_ .f32 0x00000000#32)

/-- The lower and the upper share of every sample. -/
def share0 (fr : FA S128x16x100) (mkv : FA S128x1x100) (denv : FA S128) : FA S128x16x100 :=
  Host.divf (F := Ideal) (mulf (subf oneF fr) (spreadMk mkv)) (spreadDen denv)
def share1 (fr : FA S128x16x100) (mkv : FA S128x1x100) (denv : FA S128) : FA S128x16x100 :=
  Host.divf (F := Ideal) (mulf fr (spreadMk mkv)) (spreadDen denv)

/-- The weight array: the lower shares added into zero at frame i0, then the upper shares at frame i0 + 1. -/
def weights (i0 : IA S128x16x100) (fr : FA S128x16x100) (mkv : FA S128x1x100) (denv : FA S128) : FA S128x16x100 :=
  Host.scatterAdd (F := Ideal) scatter_S128x16x100_S128x16x100x3_S128x16x100_n_012_012_3
    (Host.scatterAdd (F := Ideal) scatter_S128x16x100_S128x16x100x3_S128x16x100_n_012_012_3 zeroF (idxArr i0) (share0 fr mkv denv))
    (idxArr (addi i0 (splatI 1#32))) (share1 fr mkv denv)

/-! ## Words -/

/-- A word below 2^31 read signed is the word read unsigned. -/
theorem toInt_of_le (x : BitVec 32) (h : x.toNat < 2147483648) : x.toInt = (x.toNat : Int) := by
  rw [BitVec.toInt_eq_toNat_cond]
  rw [if_pos (by omega)]

/-- Adding one to a frame number below 99 does not wrap. -/
theorem toNat_add_one (x : BitVec 32) (h : x.toNat ≤ 98) : (x + 1#32).toNat = x.toNat + 1 := by
  rw [BitVec.toNat_add]
  show (x.toNat + 1) % 2 ^ 32 = x.toNat + 1
  exact Nat.mod_eq_of_lt (by omega)

theorem toNat_ofNat_small (n : Nat) (h : n < 128) : (BitVec.ofNat 32 n).toNat = n := by
  rw [BitVec.toNat_ofNat]
  exact Nat.mod_eq_of_lt (by omega)

/-! ## The stages at an index -/

theorem splatI_apply (n : BitVec 32) (i : S128x16x100.Idx) : splatI n i = n := by
  unfold splatI
  rw [broadcastInDim_apply _ bcast_S_S128x16x100 _ i (fun a => a.elim0) (fun a => a.elim0)]
  rfl

/-- The normalisation leaves a word that is not negative as it is. -/
theorem wrap_apply_of_small (n : BitVec 32) (x : IA S128x16x100) (i : S128x16x100.Idx)
    (h : (x i).toNat < 2147483648) :
    wrap n x i = x i := by
  show Scalar.select (IntOp.cmpi .slt (x i) (splatI 0#32 i)) (IntOp.addi (x i) (splatI n i)) (x i) = x i
  rw [splatI_apply]
  have hs : (x i).slt 0#32 = false := by
    rw [BitVec.slt, toInt_of_le _ h]
    simp
  show (if BitVec.ofBool ((x i).slt 0#32) = 1 then _ else x i) = x i
  rw [hs]
  exact if_neg (by decide)

theorem rowB_apply (b : Fin 128) (p : Fin 16) (k : Fin 100) : rowB (ix3 b p k) = BitVec.ofNat 32 b.val := by
  unfold rowB
  rw [broadcastInDim_apply _ bcast_S128x1x1_S128x16x100_0_1_2 _ (ix3 b p k) (ix3 b 0 0) (fun a => by
      match a with
      | ⟨0, _⟩ => show b.val = if (128 : Nat) = 1 then 0 else b.val; rw [if_neg (by decide)]
      | ⟨1, _⟩ => show 0 = if (1 : Nat) = 1 then 0 else p.val; rw [if_pos rfl]
      | ⟨2, _⟩ => show 0 = if (1 : Nat) = 1 then 0 else k.val; rw [if_pos rfl]),
    broadcastInDim_apply _ bcast_S128_S128x1x1_0 _ (ix3 b 0 0) (ix1 b) (fun a => by
      match a with
      | ⟨0, _⟩ => show b.val = if (128 : Nat) = 1 then 0 else b.val; rw [if_neg (by decide)])]
  rfl

theorem colP_apply (b : Fin 128) (p : Fin 16) (k : Fin 100) : colP (ix3 b p k) = BitVec.ofNat 32 p.val := by
  unfold colP
  rw [broadcastInDim_apply _ bcast_S1x16x1_S128x16x100_0_1_2 _ (ix3 b p k) (ix3 0 p 0) (fun a => by
      match a with
      | ⟨0, _⟩ => show 0 = if (1 : Nat) = 1 then 0 else b.val; rw [if_pos rfl]
      | ⟨1, _⟩ => show p.val = if (16 : Nat) = 1 then 0 else p.val; rw [if_neg (by decide)]
      | ⟨2, _⟩ => show 0 = if (1 : Nat) = 1 then 0 else k.val; rw [if_pos rfl]),
    broadcastInDim_apply _ bcast_S16_S1x16x1_1 _ (ix3 0 p 0) (ix1 p) (fun a => by
      match a with
      | ⟨0, _⟩ => show p.val = if (16 : Nat) = 1 then 0 else p.val; rw [if_neg (by decide)])]
  rfl

theorem asWord_apply (x : IA S128x16x100) (b : Fin 128) (p : Fin 16) (k : Fin 100) :
    asWord x (ix4 b p k 0) = x (ix3 b p k) := by
  unfold asWord
  exact broadcastInDim_apply _ bcast_S128x16x100_S128x16x100x1_0_1_2 x (ix4 b p k 0) (ix3 b p k) (fun a => by
    match a with
    | ⟨0, _⟩ => show b.val = if (128 : Nat) = 1 then 0 else b.val; rw [if_neg (by decide)]
    | ⟨1, _⟩ => show p.val = if (16 : Nat) = 1 then 0 else p.val; rw [if_neg (by decide)]
    | ⟨2, _⟩ => show k.val = if (100 : Nat) = 1 then 0 else k.val; rw [if_neg (by decide)])

/-- Word `q` of row (b, p, k) of the index array is piece `q` at (b, p, k). -/
theorem idxArr_word (i : IA S128x16x100) (b : Fin 128) (p : Fin 16) (k : Fin 100) (q : Fin 3)
    (x₁ : IA S128x16x100x1)
    (hx : [(⟨S128x16x100x1, asWord (wrap 128#32 rowB)⟩ : (s : Shape) × (s.Idx → BitVec 32)),
        ⟨S128x16x100x1, asWord (wrap 16#32 colP)⟩, ⟨S128x16x100x1, asWord (wrap 100#32 i)⟩][q.val]'(by simp) = ⟨S128x16x100x1, x₁⟩) :
    idxArr i (ix4 b p k q) = x₁ (ix4 b p k 0) := by
  unfold idxArr
  refine concatenate_apply_piece (3 : Fin 4) _ _ (ix4 b p k q) q.val (by simp)
    S128x16x100x1 x₁ hx rfl q.val ?_ (ix4 b p k 0) ?_ ?_
  · match q with
    | ⟨0, _⟩ => rfl
    | ⟨1, _⟩ => rfl
    | ⟨2, _⟩ => rfl
  · intro a ha
    match a with
    | ⟨0, _⟩ => rfl
    | ⟨1, _⟩ => rfl
    | ⟨2, _⟩ => rfl
    | ⟨3, _⟩ => exact absurd rfl ha
  · show q.val + 0 = q.val
    omega

theorem idxArr_word0 (i : IA S128x16x100) (b : Fin 128) (p : Fin 16) (k : Fin 100) :
    (idxArr i (ix4 b p k 0)).toInt = (b.val : Int) := by
  rw [idxArr_word i b p k 0 _ rfl, asWord_apply, wrap_apply_of_small _ _ _ (by
    rw [rowB_apply, toNat_ofNat_small _ b.isLt]; have := b.isLt; omega), rowB_apply,
    toInt_of_le _ (by rw [toNat_ofNat_small _ b.isLt]; have := b.isLt; omega), toNat_ofNat_small _ b.isLt]

theorem idxArr_word1 (i : IA S128x16x100) (b : Fin 128) (p : Fin 16) (k : Fin 100) :
    (idxArr i (ix4 b p k 1)).toInt = (p.val : Int) := by
  rw [idxArr_word i b p k 1 _ rfl, asWord_apply, wrap_apply_of_small _ _ _ (by
    rw [colP_apply, toNat_ofNat_small _ (by have := p.isLt; omega)]; have := p.isLt; omega), colP_apply,
    toInt_of_le _ (by rw [toNat_ofNat_small _ (by have := p.isLt; omega)]; have := p.isLt; omega),
    toNat_ofNat_small _ (by have := p.isLt; omega)]

theorem idxArr_word2 (i : IA S128x16x100) (b : Fin 128) (p : Fin 16) (k : Fin 100)
    (h : (i (ix3 b p k)).toNat ≤ 99) :
    (idxArr i (ix4 b p k 2)).toInt = ((i (ix3 b p k)).toNat : Int) := by
  rw [idxArr_word i b p k 2 _ rfl, asWord_apply, wrap_apply_of_small _ _ _ (by omega), toInt_of_le _ (by omega)]

/-- The word denoting 1.0. -/
theorem one_word : Ideal.ofBits .f32 0x3F800000#32 = (1 : EReal) := by
  simp [Ideal.ofBits, Ideal.ieee, -EReal.coe_mul]; norm_num

theorem oneF_apply (i : S128x16x100.Idx) : oneF i = (1 : EReal) := by
  unfold oneF
  rw [broadcastInDim_apply _ bcast_S_S128x16x100 _ i (fun a => a.elim0) (fun a => a.elim0)]
  simp only [constant, Ideal.ofBits_def, one_word]

theorem zeroF_apply (i : S128x16x100.Idx) : zeroF i = (0 : EReal) := by
  unfold zeroF
  rw [broadcastInDim_apply _ bcast_S_S128x16x100 _ i (fun a => a.elim0) (fun a => a.elim0)]
  simp only [constant, Ideal.ofBits_def, Ideal.ofBits_zero_f32]

theorem spreadMk_apply (mkv : FA S128x1x100) (b : Fin 128) (p : Fin 16) (k : Fin 100) :
    spreadMk mkv (ix3 b p k) = mkv (ix3 b 0 k) := by
  unfold spreadMk
  exact broadcastInDim_apply _ bcast_S128x1x100_S128x16x100_0_1_2 mkv (ix3 b p k) (ix3 b 0 k) (fun a => by
    match a with
    | ⟨0, _⟩ => show b.val = if (128 : Nat) = 1 then 0 else b.val; rw [if_neg (by decide)]
    | ⟨1, _⟩ => show 0 = if (1 : Nat) = 1 then 0 else p.val; rw [if_pos rfl]
    | ⟨2, _⟩ => show k.val = if (100 : Nat) = 1 then 0 else k.val; rw [if_neg (by decide)])

theorem spreadDen_apply (denv : FA S128) (b : Fin 128) (p : Fin 16) (k : Fin 100) :
    spreadDen denv (ix3 b p k) = denv (ix1 b) := by
  unfold spreadDen
  rw [broadcastInDim_apply _ bcast_S128x1x1_S128x16x100_0_1_2 _ (ix3 b p k) (ix3 b 0 0) (fun a => by
      match a with
      | ⟨0, _⟩ => show b.val = if (128 : Nat) = 1 then 0 else b.val; rw [if_neg (by decide)]
      | ⟨1, _⟩ => show 0 = if (1 : Nat) = 1 then 0 else p.val; rw [if_pos rfl]
      | ⟨2, _⟩ => show 0 = if (1 : Nat) = 1 then 0 else k.val; rw [if_pos rfl]),
    broadcastInDim_apply _ bcast_S128_S128x1x1_0 denv (ix3 b 0 0) (ix1 b) (fun a => by
      match a with
      | ⟨0, _⟩ => show b.val = if (128 : Nat) = 1 then 0 else b.val; rw [if_neg (by decide)])]

theorem share0_apply (fr : FA S128x16x100) (mkv : FA S128x1x100) (denv : FA S128) (b : Fin 128) (p : Fin 16)
    (k : Fin 100) :
    share0 fr mkv denv (ix3 b p k) = Ideal.div ((1 - fr (ix3 b p k)) * mkv (ix3 b 0 k)) (denv (ix1 b)) := by
  unfold share0
  simp only [Host.divf, mulf, subf]
  rw [oneF_apply, spreadMk_apply, spreadDen_apply]
  rfl

theorem share1_apply (fr : FA S128x16x100) (mkv : FA S128x1x100) (denv : FA S128) (b : Fin 128) (p : Fin 16)
    (k : Fin 100) :
    share1 fr mkv denv (ix3 b p k) = Ideal.div (fr (ix3 b p k) * mkv (ix3 b 0 k)) (denv (ix1 b)) := by
  unfold share1
  simp only [Host.divf, mulf]
  rw [spreadMk_apply, spreadDen_apply]
  rfl

/-! ## The weight at an entry -/

/-- The printed dimension numbers of the two scatters are the general ones over [128, 16, 100]. -/
theorem scatter_eq : scatter_S128x16x100_S128x16x100x3_S128x16x100_n_012_012_3
    = Cert.Scatter3.sd3 128 16 100 scatter_S128x16x100_S128x16x100x3_S128x16x100_n_012_012_3_wf := rfl

/-- The weight array at (b, p, l) is the collected weight of the specification, the frame numbers read off `i0`. -/
theorem weights_entry (i0 : IA S128x16x100) (fr : FA S128x16x100) (mkv : FA S128x1x100) (denv : FA S128)
    (hI : ∀ (b : Fin 128) (p : Fin 16) (k : Fin 100), (i0 (ix3 b p k)).toNat ≤ 98)
    (b : Fin 128) (p : Fin 16) (l : Fin 100) :
    weights i0 fr mkv denv (ix3 b p l)
      = Cert.Pool.poolW (fun b p j => (i0 (ix3 b p j)).toNat) (fun b p j => fr (ix3 b p j))
          (fun b j => mkv (ix3 b 0 j)) (fun b => denv (ix1 b)) b p l := by
  have hI1 : ∀ (b : Fin 128) (p : Fin 16) (k : Fin 100),
      ((addi i0 (splatI 1#32)) (ix3 b p k)).toNat = (i0 (ix3 b p k)).toNat + 1 := fun b p k => by
    show (IntOp.addi (i0 (ix3 b p k)) (splatI 1#32 (ix3 b p k))).toNat = _
    rw [splatI_apply]
    exact toNat_add_one _ (hI b p k)
  have e_in := Cert.Scatter3.sd3_scatterAdd_fibre (A := 128) (B := 16) (L := 100)
    scatter_S128x16x100_S128x16x100x3_S128x16x100_n_012_012_3_wf zeroF (idxArr i0) (share0 fr mkv denv)
    (fun a' b' k => idxArr_word0 i0 a' b' k) (fun a' b' k => idxArr_word1 i0 a' b' k) b p l
  have e_out := Cert.Scatter3.sd3_scatterAdd_fibre (A := 128) (B := 16) (L := 100)
    scatter_S128x16x100_S128x16x100x3_S128x16x100_n_012_012_3_wf
    (Ideal.hostScatterAdd (Cert.Scatter3.sd3 128 16 100 scatter_S128x16x100_S128x16x100x3_S128x16x100_n_012_012_3_wf)
      zeroF (idxArr i0) (share0 fr mkv denv))
    (idxArr (addi i0 (splatI 1#32))) (share1 fr mkv denv)
    (fun a' b' k => idxArr_word0 (addi i0 (splatI 1#32)) a' b' k)
    (fun a' b' k => idxArr_word1 (addi i0 (splatI 1#32)) a' b' k) b p l
  have e : weights i0 fr mkv denv (ix3 b p l)
      = Ideal.hostScatterAdd (Cert.Scatter3.sd3 128 16 100 scatter_S128x16x100_S128x16x100x3_S128x16x100_n_012_012_3_wf)
          (Ideal.hostScatterAdd (Cert.Scatter3.sd3 128 16 100 scatter_S128x16x100_S128x16x100x3_S128x16x100_n_012_012_3_wf)
            zeroF (idxArr i0) (share0 fr mkv denv))
          (idxArr (addi i0 (splatI 1#32))) (share1 fr mkv denv) (ix3 b p l) := rfl
  rw [e, e_out, e_in, zeroF_apply]
  unfold Cert.Pool.poolW
  refine congrArg₂ (fun u v : EReal => u + v) (congrArg (fun u : EReal => 0 + u) ?_) ?_
  · refine Finset.sum_congr (Finset.filter_congr fun k _ => ?_) fun k _ => share0_apply fr mkv denv b p k
    rw [idxArr_word2 i0 b p k (by have := hI b p k; omega)]
    exact Nat.cast_inj
  · refine Finset.sum_congr (Finset.filter_congr fun k _ => ?_) fun k _ => share1_apply fr mkv denv b p k
    rw [idxArr_word2 _ b p k (by rw [hI1]; have := hI b p k; omega), hI1]
    exact Nat.cast_inj

end Cert.KernelIdeal.Tail

end
-- ==== Proof.LibNary3.lean ====
/-
  A host operation with a LITERAL family of three operand references (a concatenation of three pieces): its result
  with each operand's contents at its own reference, so that reading a line of host operations goes on through the
  three operands. Stated for three references exactly as the library states it for four; with the general statement
  the operands stay under a binder, where their references are no literals and nothing more can be read.
  Also the one-pass reading of a line of host operations with this statement in the general one's place.
-/
import Idealize.ShloMosaic.Lib.StableHlo.Run

noncomputable section

namespace Cert.Nary3

open Idealize.ShloMosaic Idealize.ShloMosaic.StableHlo Idealize.ShloMosaic.TcCoe

variable {τ : Topo} {sig : RefSig} {Val : EltTy → Type}
variable {x a b y : Ref sig .tc}

/-- The result of an operation over the three literal references `x`, `a`, `b`: its function at the three
    operands' contents, each at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, the result reference un-indexed for `simp`. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- What one buffer holds after a literal line of host operations, as ONE simp pass: each operation's result at its
    own result buffer is its function's value, at any other reference what was there; a three-operand operation by
    `nary3_result'`. -/
macro "after_results_simp3" : tactic =>
  `(tactic| (simp (disch := decide) only [after_cons, after_nil,
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Cert.Nary3

end
-- ==== Proof.KernelHost.lean ====
/-
  The array the kernel's second window stages, as the host operations before the region leave it: the weight array
  of the specification's second arrangement.

  The host side first computes, from the segment bounds alone, the bin size d, the lower frame number i0 and the
  fraction fr of every sample — by the very operations the reference program applies — and then the in-bin
  weight, the two shares and the two accumulations. The first part is read as the reference's own stages; the second
  part is the tail read in KernelTail.lean. The line of operations is cut where the second part begins, so that
  no comparison spans both.
-/
import proofs.«104512_j79989470921114_1_alg».proof.Proof.Gen.KernelIdeal.Launch
import proofs.«104512_j79989470921114_1_alg».proof.Proof.ReadP
import proofs.«104512_j79989470921114_1_alg».proof.Proof.KernelTail
import proofs.«104512_j79989470921114_1_alg».proof.Proof.LibNary3
import Idealize.ShloMosaic.Lib.StableHlo.Run

set_option maxRecDepth 65536

noncomputable section

namespace Cert.KernelIdeal.Host

open Idealize.ShloMosaic Idealize.ShloMosaic.TcCoe Idealize.SL.Sem Idealize.ShloMosaic.StableHlo
open Cert.KernelIdeal Cert.KernelIdeal.Gen Cert.Nary3

/-- Running a line of operations and then another is running the two in a row. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => exact ih _

theorem flatten_five {α : Type} (a b c d e : List α) :
    List.flatten [a, b, c, d, e] = List.flatten [a, b, c, d] ++ e := by
  simp only [List.flatten_cons, List.flatten_nil, List.append_nil, List.append_assoc]

variable (m : (ℓ : Loc nD τ sig) → Buf (Elt Ideal) ℓ)

/-- The buffers' contents when the last stretch of host operations begins. -/
def early (c : Dev nD) : Valuation τ sig (Elt Ideal) :=
  after (List.flatten [hostOps0, hostOps0_1, hostOps0_2, hostOps0_3]) (fun b => m (c, b))

/-- The segment bounds, as launched. -/
abbrev seg (c : Dev nD) := m ((c : Thread nD τ).loc main_arg1)

/-! ## What the first four stretches leave: the reference's own stages -/

set_option maxHeartbeats 8000000 in
theorem early_v4 (c : Dev nD) :
    early m c (Proc.devRef .tc main_v4) = Cert.ReferenceIdeal.ReadP.val_main_v4 (F := Ideal) (seg m c) := by
  unfold early
  simp only [hostOps0, hostOps0_1, hostOps0_2, hostOps0_3, List.flatten_cons, List.flatten_nil, List.append_nil,
    List.cons_append, List.nil_append]
  after_results_simp3
  rfl

set_option maxHeartbeats 8000000 in
theorem early_v5 (c : Dev nD) : early m c (Proc.devRef .tc main_v5) = iotaInDim S16 32 0 := by
  unfold early
  simp only [hostOps0, hostOps0_1, hostOps0_2, hostOps0_3, List.flatten_cons, List.flatten_nil, List.append_nil,
    List.cons_append, List.nil_append]
  after_results_simp3

set_option maxHeartbeats 8000000 in
theorem early_v6 (c : Dev nD) : early m c (Proc.devRef .tc main_v6) = iotaInDim S100 32 0 := by
  unfold early
  simp only [hostOps0, hostOps0_1, hostOps0_2, hostOps0_3, List.flatten_cons, List.flatten_nil, List.append_nil,
    List.cons_append, List.nil_append]
  after_results_simp3

set_option maxHeartbeats 20000000 in
theorem early_v28 (c : Dev nD) :
    early m c (Proc.devRef .tc main_v28) = Cert.ReferenceIdeal.ReadP.val_main_v28 (F := Ideal) (seg m c) := by
  unfold early
  simp only [hostOps0, hostOps0_1, hostOps0_2, hostOps0_3, List.flatten_cons, List.flatten_nil, List.append_nil,
    List.cons_append, List.nil_append]
  after_results_simp3
  simp only [cast_eq]
  rfl

set_option maxHeartbeats 20000000 in
theorem early_v31 (c : Dev nD) :
    early m c (Proc.devRef .tc main_v31) = Cert.ReferenceIdeal.ReadP.val_main_v31 (F := Ideal) (seg m c) := by
  unfold early
  simp only [hostOps0, hostOps0_1, hostOps0_2, hostOps0_3, List.flatten_cons, List.flatten_nil, List.append_nil,
    List.cons_append, List.nil_append]
  after_results_simp3
  simp only [cast_eq]
  rfl

/-! ## The last stretch, over whatever came before -/

/-- The in-bin weight and the bin size from the bin size word `d`: 1 where the sample number is below `d`, 0
    elsewhere; and the larger of `d` and 1. -/
def maskOf (d : Tail.IA S128) : Tail.FA S128x1x100 :=
  uitofp .f32 (cmpi .slt
    (broadcastInDim S128x1x100 ![0, 1, 2] bcast_S1x1x100_S128x1x100_0_1_2
      (broadcastInDim S1x1x100 ![2] bcast_S100_S1x1x100_2 (iotaInDim S100 32 0)))
    (broadcastInDim S128x1x100 ![0, 1, 2] bcast_S128x1x1_S128x1x100_0_1_2
      (broadcastInDim S128x1x1 ![0] bcast_S128_S128x1x1_0 d)))
def denOf (d : Tail.IA S128) : Tail.FA S128 :=
  sitofp .f32 (maxsi d (broadcastInDim S128 ![] bcast_S_S128 (constantI S_ 32 1#32)))

/-- The first concatenation of three columns of index words: its result is the concatenation of its three
    operands' contents, each at its own buffer. -/
theorem concat_v78 (hxs hy) (F : Valuation τ sig (Elt Ideal)) :
    (StableHlo.nary (τ := τ) ![main_v75, main_v76, main_v77] main_v78
        (fun u => concatenate S128x16x100x3 3 [⟨S128x16x100x1, u 0⟩, ⟨S128x16x100x1, u 1⟩, ⟨S128x16x100x1, u 2⟩]
          concatenates_S128x16x100x1_S128x16x100x1_S128x16x100x1_S128x16x100x3_d3) hxs hy).result F
        (no_index (Proc.devRef .tc main_v78))
      = concatenate S128x16x100x3 3
          [⟨S128x16x100x1, F (Proc.devRef .tc main_v75)⟩, ⟨S128x16x100x1, F (Proc.devRef .tc main_v76)⟩,
            ⟨S128x16x100x1, F (Proc.devRef .tc main_v77)⟩]
          concatenates_S128x16x100x1_S128x16x100x1_S128x16x100x1_S128x16x100x3_d3 :=
  nary_result _ _ _ hxs hy F

/-- The second concatenation, likewise. -/
theorem concat_v100 (hxs hy) (F : Valuation τ sig (Elt Ideal)) :
    (StableHlo.nary (τ := τ) ![main_v97, main_v98, main_v99] main_v100
        (fun u => concatenate S128x16x100x3 3 [⟨S128x16x100x1, u 0⟩, ⟨S128x16x100x1, u 1⟩, ⟨S128x16x100x1, u 2⟩]
          concatenates_S128x16x100x1_S128x16x100x1_S128x16x100x1_S128x16x100x3_d3) hxs hy).result F
        (no_index (Proc.devRef .tc main_v100))
      = concatenate S128x16x100x3 3
          [⟨S128x16x100x1, F (Proc.devRef .tc main_v97)⟩, ⟨S128x16x100x1, F (Proc.devRef .tc main_v98)⟩,
            ⟨S128x16x100x1, F (Proc.devRef .tc main_v99)⟩]
          concatenates_S128x16x100x1_S128x16x100x1_S128x16x100x1_S128x16x100x3_d3 :=
  nary_result _ _ _ hxs hy F

/-- Two accumulations, each aimed by three columns of index words: when the zero array, the six columns and the two
    share arrays are the tail's, the result is the tail's weight array. -/
theorem weights_of_pieces (Z C0 C1 : Tail.FA S128x16x100) (A1 A2 A3 B1 B2 B3 : Tail.IA S128x16x100x1)
    (i0 : Tail.IA S128x16x100) (fr : Tail.FA S128x16x100) (mkv : Tail.FA S128x1x100) (denv : Tail.FA S128)
    (hZ : Z = Tail.zeroF)
    (hA1 : A1 = Tail.asWord (Tail.wrap 128#32 Tail.rowB)) (hA2 : A2 = Tail.asWord (Tail.wrap 16#32 Tail.colP))
    (hA3 : A3 = Tail.asWord (Tail.wrap 100#32 i0))
    (hC0 : C0 = Tail.share0 fr mkv denv)
    (hB1 : B1 = Tail.asWord (Tail.wrap 128#32 Tail.rowB)) (hB2 : B2 = Tail.asWord (Tail.wrap 16#32 Tail.colP))
    (hB3 : B3 = Tail.asWord (Tail.wrap 100#32 (addi i0 (Tail.splatI 1#32))))
    (hC1 : C1 = Tail.share1 fr mkv denv) :
    Host.scatterAdd (F := Ideal) scatter_S128x16x100_S128x16x100x3_S128x16x100_n_012_012_3
        (Host.scatterAdd (F := Ideal) scatter_S128x16x100_S128x16x100x3_S128x16x100_n_012_012_3 Z
          (concatenate S128x16x100x3 3 [⟨S128x16x100x1, A1⟩, ⟨S128x16x100x1, A2⟩, ⟨S128x16x100x1, A3⟩]
            concatenates_S128x16x100x1_S128x16x100x1_S128x16x100x1_S128x16x100x3_d3) C0)
        (concatenate S128x16x100x3 3 [⟨S128x16x100x1, B1⟩, ⟨S128x16x100x1, B2⟩, ⟨S128x16x100x1, B3⟩]
          concatenates_S128x16x100x1_S128x16x100x1_S128x16x100x1_S128x16x100x3_d3) C1
      = Tail.weights i0 fr mkv denv := by
  subst hZ hA1 hA2 hA3 hC0 hB1 hB2 hB3 hC1
  rfl

set_option maxHeartbeats 40000000 in
/-- The last stretch of host operations leaves the weight array of the tail, built from what the stretch finds in
    the buffers of i0, of t, of d and of the two counters. -/
theorem last_v101 (P : Valuation τ sig (Elt Ideal))
    (h5 : P (Proc.devRef .tc main_v5) = iotaInDim S16 32 0) (h6 : P (Proc.devRef .tc main_v6) = iotaInDim S100 32 0) :
    after (hostOps0_4 (F := Ideal)) P (Proc.devRef .tc main_v101)
      = Tail.weights (P (Proc.devRef .tc main_v31))
          (subf (P (Proc.devRef .tc main_v28)) (sitofp .f32 (P (Proc.devRef .tc main_v31))))
          (maskOf (P (Proc.devRef .tc main_v4))) (denOf (P (Proc.devRef .tc main_v4))) := by
  simp only [hostOps0_4]
  simp (disch := decide) only [after_cons, after_nil,
    nullary_result', unary_result', binary_result', ternary_result', reshape_result', concat_v78, concat_v100,
    nullary_result_ne', unary_result_ne', binary_result_ne', ternary_result_ne', reshape_result_ne', nary_result_ne']
  refine weights_of_pieces _ _ _ _ _ _ _ _ _ _ _ _ _ ?_ ?_ ?_ ?_ ?_ ?_ ?_ ?_ ?_
  all_goals (try simp (disch := decide) only [after_cons, after_nil,
    nullary_result', unary_result', binary_result', ternary_result', reshape_result', concat_v78, concat_v100,
    nullary_result_ne', unary_result_ne', binary_result_ne', ternary_result_ne', reshape_result_ne', nary_result_ne'])
  all_goals (try rw [h5])
  all_goals (try rw [h6])
  all_goals rfl

/-! ## Together -/

/-- The array the region finds in the second window's buffer is the weight array read off the reference's stages
    of the segment bounds. -/
theorem v101_eq (c : Dev nD) :
    after (List.flatten [hostOps0, hostOps0_1, hostOps0_2, hostOps0_3, hostOps0_4]) (fun b => m (c, b))
        (Proc.devRef .tc main_v101)
      = Tail.weights (Cert.ReferenceIdeal.ReadP.val_main_v31 (F := Ideal) (seg m c))
          (Cert.ReferenceIdeal.ReadP.val_main_v33 (F := Ideal) (seg m c))
          (Cert.ReferenceIdeal.ReadP.val_main_v54 (F := Ideal) (seg m c))
          (Cert.ReferenceIdeal.ReadP.val_main_v58 (F := Ideal) (seg m c)) := by
  rw [flatten_five, after_append]
  show after hostOps0_4 (early m c) (Proc.devRef .tc main_v101) = _
  rw [last_v101 (early m c) (early_v5 m c) (early_v6 m c), early_v31, early_v28, early_v4]
  rfl

end Cert.KernelIdeal.Host

end
-- ==== Proof.RefRun.lean ====
/- The reference program's run, read at the stage function of its result: every weakly fair execution of @main
   terminates with the result array at `val_main_v64` of the two argument arrays — the composition of the program's
   131 host operations in order — and the arguments as launched. -/
import proofs.«104512_j79989470921114_1_alg».proof.Proof.RunP
import proofs.«104512_j79989470921114_1_alg».proof.Proof.ReadP

-- the fold over 131 operations and the comparison of its result with the stage functions recurse deeply
set_option maxRecDepth 131072

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 52400000 in
/-- The result buffer after the 131 operations, from the launch contents: each operation's result at its own buffer is
    its function of its operands' contents, so the fold composes them into the stage function of the result (the typed
    references' transports are the identity at literal references). -/
theorem after_v64 (m : (ℓ : Loc nD τ sig) → Buf (Elt Ideal) ℓ) (c : Dev nD) :
    after (Cert.ReferenceIdeal.ValueP.ops (F := Ideal)) (launchContents m c) (Proc.devRef .tc main_v64)
      = Cert.ReferenceIdeal.ReadP.val_main_v64 (F := Ideal) (m ((c.tc : Thread nD τ).loc main_arg0)) (m ((c.tc : Thread nD τ).loc main_arg1)) := by
  after_results_simp
  simp only [cast_eq]
  rfl

set_option maxHeartbeats 52400000 in
/-- No operation writes `main_arg0`: it ends as launched. -/
theorem after_arg0 (m : (ℓ : Loc nD τ sig) → Buf (Elt Ideal) ℓ) (c : Dev nD) :
    after (Cert.ReferenceIdeal.ValueP.ops (F := Ideal)) (launchContents m c) (Proc.devRef .tc main_arg0)
      = m ((c.tc : Thread nD τ).loc main_arg0) := by
  after_results_simp <;> rfl

set_option maxHeartbeats 52400000 in
/-- No operation writes `main_arg1`: it ends as launched. -/
theorem after_arg1 (m : (ℓ : Loc nD τ sig) → Buf (Elt Ideal) ℓ) (c : Dev nD) :
    after (Cert.ReferenceIdeal.ValueP.ops (F := Ideal)) (launchContents m c) (Proc.devRef .tc main_arg1)
      = m ((c.tc : Thread nD τ).loc main_arg1) := by
  after_results_simp <;> rfl

set_option maxHeartbeats 4000000 in
/-- On every device, from any memory with zero counters: every weakly fair execution of @main terminates with the result
    at the stage function of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v64) = Cert.ReferenceIdeal.ReadP.val_main_v64 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v64).trans (after_v64 m c),
      (h c main_arg0).trans (after_arg0 m c),
      (h c main_arg1).trans (after_arg1 m c)⟩)
    (run_seq Cert.ReferenceIdeal.ValueP.scopedRefs_eq Cert.ReferenceIdeal.ValueP.scopedSems_eq defs main
      (fun _ => Cert.ReferenceIdeal.ValueP.ops) Cert.ReferenceIdeal.ValueP.main_eq (fun _ => Cert.ReferenceIdeal.ValueP.ops_sub) m ρ)

end Cert.ReferenceIdeal.RefRun

end
-- ==== Proof.Finite.lean ====
/-
  What the precondition says about the input: every entry of the float input is a real number.

  The precondition compares |x| with +infinity entry by entry and takes the conjunction over all entries. The
  conjunction being true makes every comparison true; |x| is max x (-x) on the extended reals, and
  max x (-x) < +infinity excludes both infinities, which leaves the reals.
-/
import proofs.«104512_j79989470921114_1_alg».proof.Pre_finite_inputs
import proofs.«104512_j79989470921114_1_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Pre_finite_inputs.Finite

open Idealize.ShloMosaic Cert.Pre_finite_inputs Cert.Pre_finite_inputs.Facts

/-- The word the precondition compares against denotes +infinity. -/
theorem inf_word : Ideal.ofBits .f32 0x7F800000#32 = (⊤ : EReal) := by simp [Ideal.ofBits, Ideal.ieee]

/-- An extended real whose absolute value is below +infinity is a real. -/
theorem real_of_abs_lt_top (y : EReal) (h : max y (-y) < (⊤ : EReal)) : ∃ r : ℝ, y = (r : EReal) := by
  induction y using EReal.rec with
  | bot => exact absurd h (by simp)
  | coe r => exact ⟨r, rfl⟩
  | top => exact absurd h (by simp)

/-- Under the precondition every entry of the float input is a real. -/
theorem entry_real (x : FVec Ideal S128x400x100 .f32) (seg : IVec S128x2 32)
    (h : fn (F := Ideal) x seg = fun _ => 1#1) (i : S128x400x100.Idx) : ∃ r : ℝ, x i = (r : EReal) := by
  have e := congrFun h ValueIdx.ix0
  dsimp only [fn] at e
  haveI : Subsingleton S_.Idx := ⟨fun a b => funext fun d => d.elim0⟩
  have hi := Host.reduce_andi_all _ _ _ _ _ e i
  have hb : (broadcastInDim S128x400x100 ![] bcast_S_S128x400x100 (constant (F := Ideal) S_ .f32 0x7F800000#32)) i
      = (⊤ : EReal) := by
    rw [broadcastInDim_apply _ bcast_S_S128x400x100 _ i (fun a => a.elim0) (fun a => a.elim0)]
    simp only [constant, Ideal.ofBits_def, inf_word]
  have hc : BitVec.ofBool (decide (max (x i) (-(x i)) < (⊤ : EReal))) = 1#1 := by
    rw [← hb]
    exact hi
  refine real_of_abs_lt_top (x i) ?_
  by_contra hn
  rw [show decide (max (x i) (-(x i)) < (⊤ : EReal)) = false from decide_eq_false hn] at hc
  exact absurd hc (by decide)

end Cert.Pre_finite_inputs.Finite

end
-- ==== Proof.RefGather.lean ====
/-
  Three facts about single host operations of the reference, stated over no run of it.

  A reduction by "and" of a one-bit array all of whose elements are 1, from the initial value 1, is 1 everywhere.
  The reference's gather, read at (b, c, k), is the operand at batch b, channel c and the frame that the start index
  at (b, k) names, read signed and clamped into the frame axis.  Last, the word-level facts that make the index
  arithmetic around the gather the identity on a frame number in range: such a word is not negative, passes the
  in-range test, is left alone by the clamp, and its successor does not wrap.
-/
import proofs.«104512_j79989470921114_1_alg».proof.Proof.Gen.ReferenceIdeal
import Idealize.ShloMosaic.Lib.ValueIdx
import Idealize.ShloMosaic.Lib.ReduceAll

noncomputable section

namespace Cert.ReferenceIdeal.RefValue

open Cert.ReferenceIdeal Cert.ReferenceIdeal.Gen Idealize.ShloMosaic Idealize.ShloMosaic.ValueIdx

/-! ### A reduction by "and" of all ones -/

/-- A left fold by "and" from 1 over ones is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l (fun n hn => h n (List.mem_cons_of_mem _ hn))

/-- A reduction by "and", from 1, of an array of ones is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_one (fun n => x (s.rowMajor.symm n)) _ (fun n _ => hx _)

/-! ### The gather read at an index -/

/-- The gather's dimension numbers: batch axis 0 paired with the start indices' axis 0, offset axis 1 the whole channel
    axis, and the frame axis 2 collapsed and addressed by the one-component start index. -/
abbrev gd := gather_S128x400x100_S128x1600x1_S128x400x1600_1_2_0_0_2_2_14001

theorem g_start0 (j : S128x400x1600.Idx) (idx : IVec S128x1600x1 32) : gd.start j idx 0 = 0 := by
  unfold GatherDims.start
  rw [dif_neg (by decide)]
theorem g_start1 (j : S128x400x1600.Idx) (idx : IVec S128x1600x1 32) : gd.start j idx 1 = 0 := by
  unfold GatherDims.start
  rw [dif_neg (by decide)]
theorem g_batch0 (b : Fin 128) (c : Fin 400) (k : Fin 1600) : gd.batchCoord (ix3 b c k) 0 = b.val := by
  unfold GatherDims.batchCoord
  rw [dif_pos (by decide)]
  rfl
theorem g_batch1 (j : S128x400x1600.Idx) : gd.batchCoord j 1 = 0 := GatherDims.batchCoord_eq_zero _ _ _ (by decide)
theorem g_batch2 (j : S128x400x1600.Idx) : gd.batchCoord j 2 = 0 := GatherDims.batchCoord_eq_zero _ _ _ (by decide)
theorem g_off0 (j : S128x400x1600.Idx) : gd.offCoord j 0 = 0 := GatherDims.offCoord_eq_zero _ _ _ (by decide)
theorem g_off2 (j : S128x400x1600.Idx) : gd.offCoord j 2 = 0 := GatherDims.offCoord_eq_zero _ _ _ (by decide)
theorem g_off1 (b : Fin 128) (c : Fin 400) (k : Fin 1600) : gd.offCoord (ix3 b c k) 1 = c.val := by
  unfold GatherDims.offCoord
  rw [dif_pos (by decide)]
  rfl

theorem g_start2 (b : Fin 128) (c : Fin 400) (k : Fin 1600) (idx : IVec S128x1600x1 32) :
    gd.start (ix3 b c k) idx 2 = min (idx (ix3 b k 0)).toInt.toNat 99 := by
  unfold GatherDims.start
  rw [dif_pos (show (2 : Fin 3) ∈ gd.startIndexMap from by decide)]
  have hsi : gd.siIdx (ix3 b c k) ⟨List.idxOf (2 : Fin 3) gd.startIndexMap,
      List.idxOf_lt_length_iff.2 (by decide)⟩ = ix3 b k 0 := by
    funext a; refine Fin.ext ?_
    match a with
    | ⟨0, _⟩ => rfl
    | ⟨1, _⟩ => rfl
    | ⟨2, _⟩ => rfl
  rw [hsi]
  rfl

/-- The gather read at (b, c, k): the operand at batch b, channel c, and the frame the start index names at (b, k),
    read signed and clamped into the frame axis. -/
theorem gather_entry {α : Type} (x : S128x400x100.Idx → α) (idx : IVec S128x1600x1 32) (b : Fin 128) (c : Fin 400) (k : Fin 1600) :
    Host.gather gd x idx (ix3 b c k)
      = x (ix3 b c ⟨min (idx (ix3 b k 0)).toInt.toNat 99, by omega⟩) := by
  unfold Host.gather
  congr 1
  funext a
  refine Fin.ext ?_
  match a with
  | ⟨0, _⟩ =>
    show gd.start (ix3 b c k) idx 0 + gd.batchCoord (ix3 b c k) 0 + gd.offCoord (ix3 b c k) 0 = b.val
    rw [g_start0, g_batch0, g_off0]; omega
  | ⟨1, _⟩ =>
    show gd.start (ix3 b c k) idx 1 + gd.batchCoord (ix3 b c k) 1 + gd.offCoord (ix3 b c k) 1 = c.val
    rw [g_start1, g_batch1, g_off1]; omega
  | ⟨2, _⟩ =>
    show gd.start (ix3 b c k) idx 2 + gd.batchCoord (ix3 b c k) 2 + gd.offCoord (ix3 b c k) 2 = min (idx (ix3 b k 0)).toInt.toNat 99
    rw [g_start2, g_batch2, g_off2]; omega

/-! ### Words: the clipped frame number and the two index normalisations -/

/-- The clip into [0, 98], read unsigned. -/
theorem clip_toNat_le (v : BitVec 32) : (IntOp.minsi 98#32 (IntOp.maxsi 0#32 v)).toNat ≤ 98 := by
  have h98 : (98#32 : BitVec 32).toInt = 98 := by decide
  have h0 : (0#32 : BitVec 32).toInt = 0 := by decide
  have hb : 0 ≤ (IntOp.minsi 98#32 (IntOp.maxsi 0#32 v)).toInt ∧ (IntOp.minsi 98#32 (IntOp.maxsi 0#32 v)).toInt ≤ 98 := by
    unfold IntOp.minsi IntOp.maxsi
    simp only [BitVec.slt_iff_toInt_lt]
    split <;> split <;> simp_all <;> omega
  have hp := (BitVec.toInt_pos_iff (x := IntOp.minsi 98#32 (IntOp.maxsi 0#32 v))).1 hb.1
  have := BitVec.toInt_eq_toNat_of_lt hp
  omega

/-- A word below 2^31 reads the same signed and unsigned. -/
theorem toInt_small {w : BitVec 32} (hw : w.toNat ≤ 99) : w.toInt = (w.toNat : Int) :=
  BitVec.toInt_eq_toNat_of_lt (by omega)

/-- A frame number in [0, 99] is not negative: the normalisation of negative indices leaves it alone. -/
theorem norm_id {w : BitVec 32} (hw : w.toNat ≤ 99) :
    Scalar.select (IntOp.cmpi .slt w 0#32) (IntOp.addi w 100#32) w = w := by
  unfold Scalar.select
  refine if_neg (fun h => ?_)
  have h' := (IntOp.cmpi_slt (x := w) (y := 0#32)).1 h
  rw [toInt_small hw, show (0#32 : BitVec 32).toInt = 0 from by decide] at h'
  omega

/-- A frame number in [0, 99] passes the in-range test. -/
theorem inrange_one {w : BitVec 32} (hw : w.toNat ≤ 99) :
    IntOp.andi (IntOp.cmpi .sge w 0#32) (IntOp.cmpi .sle w 99#32) = 1#1 := by
  rw [IntOp.andi_eq_one, IntOp.cmpi_sge, IntOp.cmpi_sle, toInt_small hw, show (0#32 : BitVec 32).toInt = 0 from by decide,
    show (99#32 : BitVec 32).toInt = 99 from by decide]
  omega

/-- The upper neighbour of a frame number in [0, 98]. -/
theorem succ_toNat {w : BitVec 32} (hw : w.toNat ≤ 98) : (IntOp.addi w 1#32).toNat = w.toNat + 1 := by
  unfold IntOp.addi
  rw [BitVec.toNat_add, show (1#32 : BitVec 32).toNat = 1 from by decide]
  omega

/-- The gather's clamp leaves a frame number in [0, 99] alone. -/
theorem clamp_id {w : BitVec 32} (hw : w.toNat ≤ 99) : min w.toInt.toNat 99 = w.toNat := by
  rw [toInt_small hw, Int.toNat_natCast]; omega

end Cert.ReferenceIdeal.RefValue

end
-- ==== Proof.RefReal.lean ====
/-
  Which extended reals are real numbers: the facts that carry "is a real number" through the operations the
  reference's interpolation fraction and bin size are built from.  A bit pattern whose exponent field is not all ones
  denotes a real; differences, minima and maxima of reals are real; a real divided by a nonzero real is real; and the
  larger of a machine word and one, read signed, is at least one.
-/
import Idealize.ShloMosaic.PureOps.Ideal.Laws
import Idealize.ShloMosaic.Lib.IdealHost

noncomputable section

namespace Cert.ReferenceIdeal.RefValue

open Idealize.ShloMosaic

/-! ### Real-valuedness: closure under the operations the fraction is built from -/

/-- A pattern whose exponent field is not all ones denotes a real number. -/
theorem ieee_real {e m w : Nat} (b : BitVec w) (h : (b.extractLsb' m e).toNat ≠ 2 ^ e - 1) :
    ∃ r : ℝ, Ideal.ieee e m b = (r : EReal) := by
  unfold Ideal.ieee
  dsimp only
  rw [if_neg h]
  split
  · exact ⟨_, rfl⟩
  · exact ⟨_, rfl⟩

theorem real_sub {a b : EReal} (ha : ∃ r : ℝ, a = (r : EReal)) (hb : ∃ r : ℝ, b = (r : EReal)) :
    ∃ r : ℝ, a - b = (r : EReal) := by
  obtain ⟨ra, rfl⟩ := ha; obtain ⟨rb, rfl⟩ := hb
  exact ⟨ra - rb, (EReal.coe_sub ra rb).symm⟩

theorem real_min {a b : EReal} (ha : ∃ r : ℝ, a = (r : EReal)) (hb : ∃ r : ℝ, b = (r : EReal)) :
    ∃ r : ℝ, min a b = (r : EReal) := by
  rcases min_choice a b with h | h <;> rw [h]
  · exact ha
  · exact hb

theorem real_max {a b : EReal} (ha : ∃ r : ℝ, a = (r : EReal)) (hb : ∃ r : ℝ, b = (r : EReal)) :
    ∃ r : ℝ, max a b = (r : EReal) := by
  rcases max_choice a b with h | h <;> rw [h]
  · exact ha
  · exact hb

/-- A real divided by a nonzero real is a real. -/
theorem real_div {a b : EReal} (ha : ∃ r : ℝ, a = (r : EReal)) (hb : ∃ r : ℝ, r ≠ 0 ∧ b = (r : EReal)) :
    ∃ r : ℝ, Ideal.div a b = (r : EReal) := by
  obtain ⟨ra, rfl⟩ := ha; obtain ⟨rb, hne, rfl⟩ := hb
  rw [Ideal.div_coe hne]
  exact ⟨ra * (1 / rb), (EReal.coe_mul ra (1 / rb)).symm⟩

/-- The larger of a word and one is at least one, read signed. -/
theorem maxsi_one_pos (a : BitVec 32) : 1 ≤ (IntOp.maxsi a 1#32).toInt := by
  have h1 : (1#32 : BitVec 32).toInt = 1 := by decide
  unfold IntOp.maxsi
  split
  · next h => rw [BitVec.slt_iff_toInt_lt, h1] at h; omega
  · omega

/-- An f32 pattern whose exponent field is not all ones denotes a real number. -/
theorem ofBits_f32_real (b : BitVec 32) (h : (b.extractLsb' 23 8).toNat ≠ 2 ^ 8 - 1) :
    ∃ r : ℝ, Ideal.ofBits .f32 b = (r : EReal) :=
  ieee_real (e := 8) (m := 23) b h

/-- The sixteen the sample position is divided by. -/
theorem sixteen_real : ∃ r : ℝ, r ≠ 0 ∧ Ideal.ofBits .f32 0x41800000#32 = (r : EReal) := by
  refine ⟨16, by norm_num, ?_⟩
  simp [Ideal.ofBits, Ideal.ieee, -EReal.coe_mul]; norm_num

end Cert.ReferenceIdeal.RefValue

end
-- ==== Proof.RefRead.lean ====
/-
  The reference's run read one host operation at a time, and its result identified with the pooled interpolation.

  The run of the reference and its read-at-an-index lemmas are brought in, and on them: the lower frame of every
  sample is a frame number in [0, 98] (the clip), so both index arrays handed to the two takes are in range, both
  in-range masks are one everywhere, the normalisation of negative indices and the gather's clamp do nothing, and each
  take returns the input's frame at the index.  The rest of the program is elementwise up to the final sum and the
  division, which is the pooled value of the specification.  Last, the fraction, the weight and the bin size are real
  numbers, the bin size not zero.
-/
import proofs.«104512_j79989470921114_1_alg».proof.Proof.ReadP
import proofs.«104512_j79989470921114_1_alg».proof.Proof.RefGather
import proofs.«104512_j79989470921114_1_alg».proof.Proof.RefReal
import proofs.«104512_j79989470921114_1_alg».proof.Proof.Spec
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx
open Cert.Pool

/-! ### The four quantities the pooled value is built from, read off the reference's stages -/

/-- The lower of the two frames sample j of bin p interpolates between (stage %31), as a frame number. -/
def lo (seg : (⟨S128x2, .i32⟩ : BufTy).Contents (Elt Ideal)) (b : Fin 128) (p : Fin 16) (j : Fin 100) : ℕ :=
  (val_main_v31 (F := Ideal) seg (ix3 b p j)).toNat

/-- The fraction between the two frames at which the sample sits (stage %33). -/
def fr (seg : (⟨S128x2, .i32⟩ : BufTy).Contents (Elt Ideal)) (b : Fin 128) (p : Fin 16) (j : Fin 100) : EReal :=
  val_main_v33 (F := Ideal) seg (ix3 b p j)

/-- The weight of sample j: one while j is inside the bin, zero outside (stage %54). -/
def mk (seg : (⟨S128x2, .i32⟩ : BufTy).Contents (Elt Ideal)) (b : Fin 128) (j : Fin 100) : EReal :=
  val_main_v54 (F := Ideal) seg (ix3 b 0 j)

/-- The bin's size, at least one (stage %58). -/
def den (seg : (⟨S128x2, .i32⟩ : BufTy).Contents (Elt Ideal)) (b : Fin 128) : EReal :=
  val_main_v58 (F := Ideal) seg (ix1 b)

/-! ### The lower frame is in [0, 98] -/

/-- Stage %31 is a clip into [0, 98]. -/
theorem v31_le (seg : (⟨S128x2, .i32⟩ : BufTy).Contents (Elt Ideal)) (i : S128x16x100.Idx) :
    (val_main_v31 (F := Ideal) seg i).toNat ≤ 98 := by
  rw [val_main_v31_apply, val_main_call1_v4_apply, val_main_call1_v3_apply, val_main_c_5_apply,
    val_main_call1_v2_apply, val_main_call1_v1_apply, val_main_call1_v0_apply, val_main_c_4_apply]
  exact clip_toNat_le _

theorem lo_le (seg : (⟨S128x2, .i32⟩ : BufTy).Contents (Elt Ideal)) (b : Fin 128) (p : Fin 16) (j : Fin 100) :
    lo seg b p j ≤ 98 := v31_le seg _

/-! ### The first take: start indices, mask, gathered value -/

/-- The first take's start index is the lower frame: the normalisation of negative indices does nothing. -/
theorem call2_v5_eq (seg : (⟨S128x2, .i32⟩ : BufTy).Contents (Elt Ideal)) (i : S128x1600x1.Idx) :
    val_main_call2_v5 (F := Ideal) seg i = val_main_v31 (F := Ideal) seg (idx_main_v34 (idx_main_call2_v5 i)) := by
  rw [val_main_call2_v5_apply, val_main_call2_v4_apply, val_main_call2_v1_apply, val_main_call2_v3_apply,
    val_main_call2_v0_apply, val_main_call2_c_apply, val_main_call2_v2_apply, val_main_call2_c_0_apply, val_main_v34_apply]
  exact norm_id (by have := v31_le seg (idx_main_v34 (idx_main_call2_v5 i)); omega)

/-- Every start index of the first take is in range. -/
theorem call2_v11_one (seg : (⟨S128x2, .i32⟩ : BufTy).Contents (Elt Ideal)) (i : S128x1600x1.Idx) :
    val_main_call2_v11 (F := Ideal) seg i = 1#1 := by
  rw [val_main_call2_v11_apply, val_main_call2_v7_apply, val_main_call2_v10_apply, val_main_call2_v6_apply,
    val_main_call2_c_2_apply, val_main_call2_v9_apply, val_main_call2_v8_apply, val_main_call2_c_1_apply, call2_v5_eq]
  exact inrange_one (by have := v31_le seg (idx_main_v34 (idx_main_call2_v5 i)); omega)

/-- So the first take's mask is one everywhere. -/
theorem call2_v12_one (seg : (⟨S128x2, .i32⟩ : BufTy).Contents (Elt Ideal)) (j : S128x1600.Idx) :
    val_main_call2_v12 (F := Ideal) seg j = 1#1 := by
  unfold val_main_call2_v12
  exact reduce_andi_ones _ _ _ _ (call2_v11_one seg) (fun _ => rfl) j

/-! ### Index bookkeeping: the layout operations between the stages, at explicit coordinates -/

/-- Sample k of bin p, as a position on the flattened axis of 16 · 100 samples. -/
def flat (p : Fin 16) (k : Fin 100) : Fin 1600 := ⟨p.val * 100 + k.val, by omega⟩

theorem idx62 (b : Fin 128) (c : Fin 400) (p : Fin 16) (k : Fin 100) :
    idx_main_v62 (ix3 b c p) k = ix4 b c p k := by
  funext a; match a with | ⟨0, _⟩ => rfl | ⟨1, _⟩ => rfl | ⟨2, _⟩ => rfl | ⟨3, _⟩ => rfl

theorem idx36 (b : Fin 128) (c : Fin 400) (p : Fin 16) (k : Fin 100) :
    idx_main_v36 (ix4 b c p k) = ix3 b c (flat p k) := by
  have hb := b.isLt; have hc := c.isLt; have hp := p.isLt; have hk := k.isLt
  funext a; refine Fin.ext ?_
  match a with
  | ⟨0, _⟩ => show (((b.val * 400 + c.val) * 16 + p.val) * 100 + k.val) / 640000 = b.val; omega
  | ⟨1, _⟩ => show (((b.val * 400 + c.val) * 16 + p.val) * 100 + k.val) / 1600 % 400 = c.val; omega
  | ⟨2, _⟩ => show (((b.val * 400 + c.val) * 16 + p.val) * 100 + k.val) % 1600 = p.val * 100 + k.val; omega

theorem idx40 (b : Fin 128) (c : Fin 400) (p : Fin 16) (k : Fin 100) :
    idx_main_v40 (ix4 b c p k) = ix3 b c (flat p k) := idx36 b c p k

theorem idx5_34 (b : Fin 128) (p : Fin 16) (k : Fin 100) :
    idx_main_v34 (idx_main_call2_v5 (ix3 b (flat p k) 0)) = ix3 b p k := by
  have hb := b.isLt; have hp := p.isLt; have hk := k.isLt
  funext a; refine Fin.ext ?_
  match a with
  | ⟨0, _⟩ =>
    show ((((b.val * 1600 + (p.val * 100 + k.val)) * 1 + 0) / 1600 * 1 + 0) * 1600
      + ((b.val * 1600 + (p.val * 100 + k.val)) * 1 + 0) % 1600) / 1600 = b.val
    omega
  | ⟨1, _⟩ =>
    show ((((b.val * 1600 + (p.val * 100 + k.val)) * 1 + 0) / 1600 * 1 + 0) * 1600
      + ((b.val * 1600 + (p.val * 100 + k.val)) * 1 + 0) % 1600) / 100 % 16 = p.val
    omega
  | ⟨2, _⟩ =>
    show ((((b.val * 1600 + (p.val * 100 + k.val)) * 1 + 0) / 1600 * 1 + 0) * 1600
      + ((b.val * 1600 + (p.val * 100 + k.val)) * 1 + 0) % 1600) % 100 = k.val
    omega

theorem idx5_34' (b : Fin 128) (p : Fin 16) (k : Fin 100) :
    idx_main_v34 (idx_main_call3_v5 (ix3 b (flat p k) 0)) = ix3 b p k := idx5_34 b p k

theorem idx44_41 (b : Fin 128) (c : Fin 400) (p : Fin 16) (k : Fin 100) :
    idx_main_v41 (idx_main_v44 (ix4 b c p k)) = ix3 b p k := by
  funext a; match a with | ⟨0, _⟩ => rfl | ⟨1, _⟩ => rfl | ⟨2, _⟩ => rfl

theorem idx60_55 (b : Fin 128) (c : Fin 400) (p : Fin 16) (k : Fin 100) :
    idx_main_v55 (idx_main_v60 (ix4 b c p k)) = ix3 b 0 k := by
  funext a; match a with | ⟨0, _⟩ => rfl | ⟨1, _⟩ => rfl | ⟨2, _⟩ => rfl

theorem idx63_59 (b : Fin 128) (c : Fin 400) (p : Fin 16) :
    idx_main_v59 (idx_main_v63 (ix3 b c p)) = ix1 b := by
  funext a; match a with | ⟨0, _⟩ => rfl

/-- The gather at a start index known to be a frame number in range: that frame of the operand. -/
theorem gather_frame (x : (⟨S128x400x100, .f32⟩ : BufTy).Contents (Elt Ideal)) (idx : IVec S128x1600x1 32)
    (b : Fin 128) (c : Fin 400) (K : Fin 1600) (w : BitVec 32) (hw : w.toNat ≤ 99) (h : idx (ix3 b K 0) = w) :
    Host.gather gd x idx (ix3 b c K) = x (ix3 b c (pos100 w.toNat)) := by
  rw [gather_entry]
  refine congrArg (fun f => x (ix3 b c f)) (Fin.ext ?_)
  show min (idx (ix3 b K 0)).toInt.toNat 99 = w.toNat % 100
  rw [h, clamp_id hw]; omega

/-- The first take, read at (b, c, sample k of bin p): the input's lower frame. -/
theorem v35_entry (x : (⟨S128x400x100, .f32⟩ : BufTy).Contents (Elt Ideal)) (seg : (⟨S128x2, .i32⟩ : BufTy).Contents (Elt Ideal))
    (b : Fin 128) (c : Fin 400) (p : Fin 16) (k : Fin 100) :
    val_main_v35 (F := Ideal) x seg (ix3 b c (flat p k)) = x (ix3 b c (pos100 (lo seg b p k))) := by
  rw [val_main_v35_apply, val_main_call2_v14_apply, call2_v12_one, select_one]
  unfold val_main_call2_v13
  exact gather_frame x _ b c (flat p k) _ (by have := v31_le seg (ix3 b p k); omega)
    (by rw [call2_v5_eq, idx5_34])

/-! ### The second take: the same, one frame up -/

/-- The second take's start index is the lower frame plus one. -/
theorem call3_v5_eq (seg : (⟨S128x2, .i32⟩ : BufTy).Contents (Elt Ideal)) (i : S128x1600x1.Idx) :
    val_main_call3_v5 (F := Ideal) seg i
      = IntOp.addi (val_main_v31 (F := Ideal) seg (idx_main_v34 (idx_main_call3_v5 i))) 1#32 := by
  rw [val_main_call3_v5_apply, val_main_call3_v4_apply, val_main_call3_v1_apply, val_main_call3_v3_apply,
    val_main_call3_v0_apply, val_main_call3_c_apply, val_main_call3_v2_apply, val_main_call3_c_0_apply,
    val_main_v38_apply, val_main_v37_apply, val_main_c_6_apply, val_main_v34_apply]
  exact norm_id (by
    have := v31_le seg (idx_main_v34 (idx_main_call3_v5 i))
    rw [succ_toNat this]; omega)

theorem call3_v11_one (seg : (⟨S128x2, .i32⟩ : BufTy).Contents (Elt Ideal)) (i : S128x1600x1.Idx) :
    val_main_call3_v11 (F := Ideal) seg i = 1#1 := by
  rw [val_main_call3_v11_apply, val_main_call3_v7_apply, val_main_call3_v10_apply, val_main_call3_v6_apply,
    val_main_call3_c_2_apply, val_main_call3_v9_apply, val_main_call3_v8_apply, val_main_call3_c_1_apply, call3_v5_eq]
  exact inrange_one (by
    have := v31_le seg (idx_main_v34 (idx_main_call3_v5 i))
    rw [succ_toNat this]; omega)

theorem call3_v12_one (seg : (⟨S128x2, .i32⟩ : BufTy).Contents (Elt Ideal)) (j : S128x1600.Idx) :
    val_main_call3_v12 (F := Ideal) seg j = 1#1 := by
  unfold val_main_call3_v12
  exact reduce_andi_ones _ _ _ _ (call3_v11_one seg) (fun _ => rfl) j

/-- The second take, read at (b, c, sample k of bin p): the input's upper frame. -/
theorem v39_entry (x : (⟨S128x400x100, .f32⟩ : BufTy).Contents (Elt Ideal)) (seg : (⟨S128x2, .i32⟩ : BufTy).Contents (Elt Ideal))
    (b : Fin 128) (c : Fin 400) (p : Fin 16) (k : Fin 100) :
    val_main_v39 (F := Ideal) x seg (ix3 b c (flat p k)) = x (ix3 b c (pos100 (lo seg b p k + 1))) := by
  have hw := v31_le seg (ix3 b p k)
  rw [val_main_v39_apply, val_main_call3_v14_apply, call3_v12_one, select_one]
  unfold val_main_call3_v13
  have h := gather_frame x (val_main_call3_v5 (F := Ideal) seg) b c (flat p k)
    (IntOp.addi (val_main_v31 (F := Ideal) seg (ix3 b p k)) 1#32) (by rw [succ_toNat hw]; omega)
    (by rw [call3_v5_eq, idx5_34'])
  rw [succ_toNat hw] at h
  exact h

/-! ### One sample's term, and the entry -/

/-- The summand of the reference's final sum at sample k: the two frames interpolated at the fraction, weighted. -/
theorem term_eq (x : (⟨S128x400x100, .f32⟩ : BufTy).Contents (Elt Ideal)) (seg : (⟨S128x2, .i32⟩ : BufTy).Contents (Elt Ideal))
    (b : Fin 128) (c : Fin 400) (p : Fin 16) (k : Fin 100) :
    val_main_v61 (F := Ideal) x seg (ix4 b c p k)
      = (x (ix3 b c (pos100 (lo seg b p k))) * (1 - fr seg b p k)
          + x (ix3 b c (pos100 (lo seg b p k + 1))) * fr seg b p k) * mk seg b k := by
  rw [val_main_v61_apply, val_main_v48_apply, val_main_v45_apply, val_main_v47_apply, val_main_v36_apply,
    val_main_v40_apply, val_main_v44_apply, val_main_v43_apply, val_main_v42_apply, val_main_cst_7_apply,
    val_main_v46_apply, val_main_v41_apply, val_main_v60_apply, val_main_v55_apply,
    idx36, idx40, idx44_41, idx60_55, v35_entry, v39_entry]
  simp only [Ideal.mulf_def, Ideal.addf_def, Ideal.subf_def, Ideal.ofBits_def, Ideal.ofBits_one_f32]
  rfl

/-- THE REFERENCE'S RESULT AT (b, c, p) is the pooled interpolation of the input over the four quantities above. -/
theorem ref_entry (x : (⟨S128x400x100, .f32⟩ : BufTy).Contents (Elt Ideal)) (seg : (⟨S128x2, .i32⟩ : BufTy).Contents (Elt Ideal))
    (b : Fin 128) (c : Fin 400) (p : Fin 16) :
    val_main_v64 (F := Ideal) x seg (ix3 b c p) = poolRef x (lo seg) (fr seg) (mk seg) (den seg) b c p := by
  rw [val_main_v64_apply, val_main_v62_apply, val_main_cst_9_apply, val_main_v63_apply, val_main_v59_apply, idx63_59]
  simp only [Ideal.hostDivf_def, Ideal.ofBits_def, Ideal.ofBits_zero_f32]
  unfold poolRef
  refine congrArg (fun s => Ideal.div (0 + s) (den seg b)) (Finset.sum_congr rfl fun k _ => ?_)
  rw [idx62]
  exact term_eq x seg b c p k

/-! ### The three scalar families are real numbers -/

theorem mk_real (seg : (⟨S128x2, .i32⟩ : BufTy).Contents (Elt Ideal)) (b : Fin 128) (j : Fin 100) :
    ∃ r : ℝ, mk seg b j = (r : EReal) := by
  unfold mk
  rw [val_main_v54_apply]
  exact ⟨_, rfl⟩

theorem den_real (seg : (⟨S128x2, .i32⟩ : BufTy).Contents (Elt Ideal)) (b : Fin 128) :
    ∃ r : ℝ, r ≠ 0 ∧ den seg b = (r : EReal) := by
  unfold den
  rw [val_main_v58_apply, val_main_v57_apply, val_main_v56_apply, val_main_c_8_apply]
  refine ⟨_, ?_, rfl⟩
  have := maxsi_one_pos (val_main_v4 (F := Ideal) seg (ix1 b))
  exact Int.cast_ne_zero.2 (by omega)

theorem fr_real (seg : (⟨S128x2, .i32⟩ : BufTy).Contents (Elt Ideal)) (b : Fin 128) (p : Fin 16) (j : Fin 100) :
    ∃ r : ℝ, fr seg b p j = (r : EReal) := by
  unfold fr
  rw [val_main_v33_apply, val_main_v32_apply, val_main_v28_apply, val_main_v27_apply, val_main_cst_3_apply,
    val_main_v26_apply, val_main_v25_apply, val_main_cst_2_apply, val_main_v24_apply, val_main_call0_v4_apply,
    val_main_call0_v3_apply, val_main_cst_1_apply, val_main_call0_v2_apply, val_main_call0_v1_apply,
    val_main_call0_v0_apply, val_main_cst_apply, val_main_v23_apply]
  simp only [Ideal.subf_def, Ideal.hostDivf_def, Ideal.minimumf_def, Ideal.maximumf_def, Ideal.ofBits_def]
  exact real_sub (real_sub (real_div (real_min (ofBits_f32_real _ (by decide))
    (real_max (ofBits_f32_real _ (by decide)) ⟨_, rfl⟩)) sixteen_real) (ofBits_f32_real _ (by decide))) ⟨_, rfl⟩

end Cert.ReferenceIdeal.RefValue

end
-- ==== Proof.Law.lean ====
/-
  The one law that joins the two arrangements of the pooled value: contracting the input's frames against the
  collected weights equals interpolating each sample and then summing.

  Over the reals it is an exchange of two finite sums.  Write a_j = (1 - f_j) * m_j / δ and b_j = f_j * m_j / δ for
  the lower and upper shares of sample j.  Then
      sum_l X_l * ( sum_{j : lo_j = l} a_j + sum_{j : lo_j + 1 = l} b_j )
    = sum_j X_{lo_j} * a_j + sum_j X_{lo_j + 1} * b_j                      (each sample meets exactly one frame l)
    = ( sum_j (X_{lo_j} * (1 - f_j) + X_{lo_j + 1} * f_j) * m_j ) / δ.
  On the extended reals the same holds as soon as every quantity is a real and δ is not zero: distributing a
  product over a sum and moving the division by δ across the sum are not valid at the infinities, which is exactly
  where the finiteness of the input is used.
-/
import proofs.«104512_j79989470921114_1_alg».proof.Proof.Spec
import Mathlib.Data.EReal.Operations
import Mathlib.Algebra.BigOperators.Ring.Finset
import Mathlib.Tactic.Ring
import Mathlib.Tactic.NormNum

noncomputable section

open scoped BigOperators

namespace Cert.Pool

open Idealize.ShloMosaic Idealize.ShloMosaic.ValueIdx

/-- The coercion of a finite sum of reals to the extended reals is the sum of the coercions. -/
@[norm_cast] theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Each sample meets exactly one frame: a sum over frames of the frame's value times the shares of the samples
    aimed at it is the sum over samples of the share times the value of the frame it is aimed at. -/
theorem sum_frames_eq_sum_samples (X : Fin 100 → ℝ) (g : Fin 100 → ℕ) (hg : ∀ j, g j < 100) (w : Fin 100 → ℝ) :
    ∑ l : Fin 100, X l * ∑ j ∈ Finset.univ.filter (fun j : Fin 100 => g j = l.val), w j
      = ∑ j : Fin 100, X (pos100 (g j)) * w j := by
  simp only [Finset.mul_sum, Finset.sum_filter]
  rw [Finset.sum_comm]
  refine Finset.sum_congr rfl fun j _ => ?_
  rw [Finset.sum_eq_single (pos100 (g j))]
  · rw [if_pos]
    show g j = g j % 100
    exact (Nat.mod_eq_of_lt (hg j)).symm
  · intro l _ hl
    rw [if_neg (fun h : g j = l.val => hl (Fin.ext (by
      show l.val = g j % 100
      rw [Nat.mod_eq_of_lt (hg j)]
      exact h.symm))), mul_zero]
  · intro h
    exact absurd (Finset.mem_univ _) h

/-- The law over the reals, for one batch, channel and bin. -/
theorem real_law (X : Fin 100 → ℝ) (lo : Fin 100 → ℕ) (f mm : Fin 100 → ℝ) (δ : ℝ) (hlo : ∀ j, lo j ≤ 98) :
    ∑ l : Fin 100, X l * ((0 + ∑ j ∈ Finset.univ.filter (fun j : Fin 100 => lo j = l.val), ((1 - f j) * mm j) * (1 / δ))
        + ∑ j ∈ Finset.univ.filter (fun j : Fin 100 => lo j + 1 = l.val), (f j * mm j) * (1 / δ))
      = (0 + ∑ j : Fin 100, (X (pos100 (lo j)) * (1 - f j) + X (pos100 (lo j + 1)) * f j) * mm j) * (1 / δ) := by
  have e0 := sum_frames_eq_sum_samples X lo (fun j => by have := hlo j; omega)
    (fun j => ((1 - f j) * mm j) * (1 / δ))
  have e1 := sum_frames_eq_sum_samples X (fun j => lo j + 1) (fun j => by have := hlo j; omega)
    (fun j => (f j * mm j) * (1 / δ))
  simp only [zero_add, mul_add, Finset.sum_add_distrib]
  rw [e0, e1, Finset.sum_mul, ← Finset.sum_add_distrib]
  refine Finset.sum_congr rfl fun j _ => ?_
  ring

/-- The law on the extended reals: with a real input, real fractions and weights, and a real non-zero bin size,
    contracting against the collected weights is interpolating and summing. -/
theorem poolKer_eq_poolRef (x : SX.Idx → EReal) (lo : Fin 128 → Fin 16 → Fin 100 → ℕ)
    (fr : Fin 128 → Fin 16 → Fin 100 → EReal) (mk : Fin 128 → Fin 100 → EReal) (den : Fin 128 → EReal)
    (hx : ∀ i, ∃ r : ℝ, x i = (r : EReal)) (hfr : ∀ b p j, ∃ r : ℝ, fr b p j = (r : EReal))
    (hmk : ∀ b j, ∃ r : ℝ, mk b j = (r : EReal)) (hden : ∀ b, ∃ r : ℝ, r ≠ 0 ∧ den b = (r : EReal))
    (hlo : ∀ b p j, lo b p j ≤ 98) (b : Fin 128) (c : Fin 400) (p : Fin 16) :
    poolKer x lo fr mk den b c p = poolRef x lo fr mk den b c p := by
  choose X hX using hx
  choose FR hFR using hfr
  choose MK hMK using hmk
  obtain ⟨δ, hδ0, hδ⟩ := hden b
  unfold poolKer poolRef poolW
  simp only [hX, hFR, hMK, hδ, Ideal.div_coe hδ0]
  have h := real_law (fun l => X (ix3 b c l)) (lo b p) (FR b p) (MK b) δ (hlo b p)
  exact_mod_cast h

end Cert.Pool

end
-- ==== Proof.Bridge.lean ====
/-
  The two sides at one entry.  With the collected weights W read off the reference's own stages of the segment bounds
  (KernelTail), the contraction  sum_l x[b, c, l] * W[b, p, l]  is the specification's second arrangement; the
  reference's result at (b, c, p) is the first (RefRead); and for a finite input the two agree (Law): the fractions
  and in-bin weights are real, the bin size is a real that is not zero, and every lower frame number is at most 98.
-/
import proofs.«104512_j79989470921114_1_alg».proof.Proof.RefRead
import proofs.«104512_j79989470921114_1_alg».proof.Proof.KernelTail
import proofs.«104512_j79989470921114_1_alg».proof.Proof.Law

noncomputable section

open scoped BigOperators

namespace Cert.Bridge

open Idealize.ShloMosaic Idealize.ShloMosaic.ValueIdx

/-- At an entry, the contraction of a finite input against the collected weights is the reference's interpolated,
    weighted and averaged sum. -/
theorem entry_eq (x : Cert.Pool.SX.Idx → EReal) (seg : IVec Cert.ReferenceIdeal.S128x2 32)
    (hx : ∀ i, ∃ r : ℝ, x i = (r : EReal)) (b : Fin 128) (ch : Fin 400) (p : Fin 16) :
    (∑ l : Fin 100, x (ix3 b ch l) *
        Cert.KernelIdeal.Tail.weights (Cert.ReferenceIdeal.ReadP.val_main_v31 (F := Ideal) seg)
          (Cert.ReferenceIdeal.ReadP.val_main_v33 (F := Ideal) seg) (Cert.ReferenceIdeal.ReadP.val_main_v54 (F := Ideal) seg)
          (Cert.ReferenceIdeal.ReadP.val_main_v58 (F := Ideal) seg) (ix3 b p l))
      = Cert.ReferenceIdeal.ReadP.val_main_v64 (F := Ideal) x seg (ix3 b ch p) := by
  rw [Cert.ReferenceIdeal.RefValue.ref_entry x seg b ch p]
  rw [← Cert.Pool.poolKer_eq_poolRef x _ _ _ _ hx (Cert.ReferenceIdeal.RefValue.fr_real seg)
    (Cert.ReferenceIdeal.RefValue.mk_real seg) (Cert.ReferenceIdeal.RefValue.den_real seg)
    (Cert.ReferenceIdeal.RefValue.lo_le seg) b ch p]
  unfold Cert.Pool.poolKer
  refine Finset.sum_congr rfl fun l _ => ?_
  rw [Cert.KernelIdeal.Tail.weights_entry _ _ _ _ (Cert.ReferenceIdeal.RefValue.lo_le seg) b p l]
  rfl

end Cert.Bridge

end
-- ==== Proof.lean ====
/-
  Temporal pooling: the kernel against its reference, over the extended reals.

  For a batch b, a channel c and an output bin p both programs average up to 100 samples of the input along its
  frame axis; sample j of the bin lies between the frames lo and lo + 1 at the fraction fr, counts with weight 1
  while j is inside the bin and 0 outside, and the sum is divided by the bin's size. The reference gathers the two
  frames of every sample, interpolates, weighs, sums and divides. The kernel's host side instead collects, for every
  frame l, the total weight W[b, p, l] the frame receives from all samples (two accumulating scatters into zero), and
  the kernel proper contracts the input against W, one block of 32 batches per grid point.

  The two are one number: exchanging the sum over frames with the sum over samples turns the contraction against
  the collected weights into the sum of the interpolated samples (Law.lean). That exchange distributes products over
  sums and moves a division across a sum, which holds on the extended reals only for real quantities, so it uses that
  the input is finite; fractions, weights and bin sizes are real by construction, and the bin size is at least 1.

  The parts: the frames of the two kernel programs (FrameBits, FrameIdeal); the kernel's result array as the
  contraction of its two staged arrays (KernelBlocks); the second staged array as the collected weights (KernelHost
  over KernelTail); the reference's run (RefRun) and its result at an entry as the interpolated sum (RefRead); the
  input's entries real under the precondition (Finite); the two sides at an entry (Bridge over Law). Idealizing the
  kernel rewrote nothing, so there is nothing to preserve.
-/
import proofs.«104512_j79989470921114_1_alg».proof.Defs
import proofs.«104512_j79989470921114_1_alg».proof.Proof.Gen.Kernel
import proofs.«104512_j79989470921114_1_alg».proof.Proof.Gen.KernelIdeal
import proofs.«104512_j79989470921114_1_alg».proof.Proof.Gen.ReferenceIdeal
import proofs.«104512_j79989470921114_1_alg».proof.Proof.Gen.Pre_finite_inputs
import proofs.«104512_j79989470921114_1_alg».proof.Proof.FrameBits
import proofs.«104512_j79989470921114_1_alg».proof.Proof.FrameIdeal
import proofs.«104512_j79989470921114_1_alg».proof.Proof.KernelBlocks
import proofs.«104512_j79989470921114_1_alg».proof.Proof.KernelHost
import proofs.«104512_j79989470921114_1_alg».proof.Proof.RefRun
import proofs.«104512_j79989470921114_1_alg».proof.Proof.Finite
import proofs.«104512_j79989470921114_1_alg».proof.Proof.Bridge
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Frm.frame m ρ

theorem frame_ki : Cert.frame_KernelIdeal := fun m ρ _ => Cert.KernelIdeal.Frm.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- The two idealized programs, run from memories agreeing on the arguments, end with equal results: the kernel's
    result array is the contraction of the input against the array its host side built, that array is the collected
    weights, and at every entry the contraction is the reference's value, the input being finite. -/
theorem algebraic : Cert.algebraic_KernelIdeal_ReferenceIdeal := by
  intro m ρ m' ρ' hpre hagree
  refine ⟨fun c => Cert.KernelIdeal.Blocks.G (Cert.KernelIdeal.Frm.V m c Cert.KernelIdeal.main_arg0)
    (Cert.KernelIdeal.Frm.V m c Cert.KernelIdeal.main_v101), Cert.KernelIdeal.Blocks.run_value m ρ, ?_⟩
  refine (θ_run Cert.ReferenceIdeal.defs _ _).mono (fun _ h c => ⟨(h c).1.trans ?_, (h c).2⟩)
    (Cert.ReferenceIdeal.RefRun.run m' ρ')
  rw [(hagree c).1, (hagree c).2]
  funext i
  obtain ⟨b, ch, p, rfl⟩ : ∃ (b : Fin 128) (ch : Fin 400) (p : Fin 16), i = ix3 b ch p := ⟨i 0, i 1, i 2, eq_ix3 i⟩
  beta_reduce
  rw [Cert.KernelIdeal.Blocks.G_apply, Cert.KernelIdeal.Frm.V_main_arg0,
    show Cert.KernelIdeal.Frm.V m c Cert.KernelIdeal.main_v101 = _ from Cert.KernelIdeal.Host.v101_eq m c]
  exact (Cert.Bridge.entry_eq _ _ (fun i => Cert.Pre_finite_inputs.Finite.entry_real _ _ (hpre c) i) b ch p).symm

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
